-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x32x64x64 : Shape := ⟨5, ![2, 16, 32, 64, 64]⟩
abbrev S_ : Shape := ⟨0, ![]⟩

class Facts : Prop where
  bcast_S_S2x16x32x64x64 : S_.BroadcastsInDim S2x16x32x64x64 (![] : Fin 0 → Fin S2x16x32x64x64.rank)
  reducesTo_S2x16x32x64x64_S_d0_1_2_3_4 : S2x16x32x64x64.ReducesTo [0, 1, 2, 3, 4] S_
  h_S_ : 0 < S_.numel

variable [Facts]

def fn {F : FTy → Type} [FloatOps F] (main_arg0 : FVec F S2x16x32x64x64 .f32) : IVec S_ 1 :=
  let main_v0 : FVec F S2x16x32x64x64 .f32 := Host.absf main_arg0
  let main_cst : FVec F S_ .f32 := constant S_ .f32 0x7F800000#32
  let main_v1 : FVec F S2x16x32x64x64 .f32 := broadcastInDim S2x16x32x64x64 ![] bcast_S_S2x16x32x64x64 main_cst
  let main_v2 : IVec S2x16x32x64x64 1 := cmpf .olt main_v0 main_v1
  let main_c : IVec S_ 1 := constantI S_ 1 1#1
  let main_v3 : IVec S_ 1 := (fun x v => Host.reduce IntOp.andi x v reducesTo_S2x16x32x64x64_S_d0_1_2_3_4 h_S_) main_v2 main_c
  main_v3
-- ==== Kernel.lean ====
abbrev S2x16x32x64x64 : Shape := ⟨5, ![2, 16, 32, 64, 64]⟩
abbrev S2x432x32x64x64 : Shape := ⟨5, ![2, 432, 32, 64, 64]⟩
abbrev S1x1x32x64x64 : Shape := ⟨5, ![1, 1, 32, 64, 64]⟩
abbrev S1x9x32x64x64 : Shape := ⟨5, ![1, 9, 32, 64, 64]⟩
abbrev S34x66x66 : Shape := ⟨3, ![34, 66, 66]⟩
abbrev S32x64x64 : Shape := ⟨3, ![32, 64, 64]⟩

abbrev nBuf : Space → Nat
  | .hbm => 2
  | .vmem => 5
  | .smem => 0
  | _ => 0

abbrev bufTy : (tb : Table) → Fin (tcTables nBuf tb) → BufTy
  | .hbm, ⟨0, _⟩ => ⟨S2x16x32x64x64, .f32⟩
  | .hbm, ⟨1, _⟩ => ⟨S2x432x32x64x64, .f32⟩
  | .local _ .vmem, ⟨0, _⟩ => ⟨S1x1x32x64x64, .f32⟩
  | .local _ .vmem, ⟨1, _⟩ => ⟨S1x1x32x64x64, .f32⟩
  | .local _ .vmem, ⟨2, _⟩ => ⟨S1x9x32x64x64, .f32⟩
  | .local _ .vmem, ⟨3, _⟩ => ⟨S1x9x32x64x64, .f32⟩
  | .local _ .vmem, ⟨4, _⟩ => ⟨S34x66x66, .f32⟩
  | _, _ => ⟨S2x16x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 16, 3], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  let c0_i32_1 : BitVec 32 := 0#32
  let c0_i32_2 : BitVec 32 := 0#32
  ![arg0.toNat, v1.toNat, c0_i32.toNat, c0_i32_0.toNat, c0_i32_1.toNat]

abbrev stage0_0 : Fin 2 → Memref sig .tc .vmem S1x1x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x32x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  inb_S34x66x66_S34x66x66_0_0_0 : ∀ a, (![0, 0, 0] : Fin 3 → Nat) a + S34x66x66.size a ≤ S34x66x66.size a
  h_S34x66x66 : 0 < S34x66x66.numel
  shapeCasts_S34x66x66_S34x66x66 : S34x66x66.ShapeCasts S34x66x66
  inb_S1x1x32x64x64_S1x1x32x64x64_0_0_0_0_0 : ∀ a, (![0, 0, 0, 0, 0] : Fin 5 → Nat) a + S1x1x32x64x64.size a ≤ S1x1x32x64x64.size a
  h_S1x1x32x64x64 : 0 < S1x1x32x64x64.numel
  shapeCasts_S1x1x32x64x64_S32x64x64 : S1x1x32x64x64.ShapeCasts S32x64x64
  inb_S34x66x66_S32x64x64_1_1_1 : ∀ a, (![1, 1, 1] : Fin 3 → Nat) a + S32x64x64.size a ≤ S34x66x66.size a
  h_S32x64x64 : 0 < S32x64x64.numel
  shapeCasts_S32x64x64_S32x64x64 : S32x64x64.ShapeCasts S32x64x64
  inb_S34x66x66_S32x64x64_0_0_0 : ∀ a, (![0, 0, 0] : Fin 3 → Nat) a + S32x64x64.size a ≤ S34x66x66.size a
  inb_S1x9x32x64x64_S1x1x32x64x64_0_0_0_0_0 : ∀ a, (![0, 0, 0, 0, 0] : Fin 5 → Nat) a + S1x1x32x64x64.size a ≤ S1x9x32x64x64.size a
  shapeCasts_S32x64x64_S1x1x32x64x64 : S32x64x64.ShapeCasts S1x1x32x64x64
  inb_S34x66x66_S32x64x64_0_0_1 : ∀ a, (![0, 0, 1] : Fin 3 → Nat) a + S32x64x64.size a ≤ S34x66x66.size a
  inb_S1x9x32x64x64_S1x1x32x64x64_0_1_0_0_0 : ∀ a, (![0, 1, 0, 0, 0] : Fin 5 → Nat) a + S1x1x32x64x64.size a ≤ S1x9x32x64x64.size a
  inb_S34x66x66_S32x64x64_0_0_2 : ∀ a, (![0, 0, 2] : Fin 3 → Nat) a + S32x64x64.size a ≤ S34x66x66.size a
  inb_S1x9x32x64x64_S1x1x32x64x64_0_2_0_0_0 : ∀ a, (![0, 2, 0, 0, 0] : Fin 5 → Nat) a + S1x1x32x64x64.size a ≤ S1x9x32x64x64.size a
  inb_S34x66x66_S32x64x64_0_1_0 : ∀ a, (![0, 1, 0] : Fin 3 → Nat) a + S32x64x64.size a ≤ S34x66x66.size a
  inb_S1x9x32x64x64_S1x1x32x64x64_0_3_0_0_0 : ∀ a, (![0, 3, 0, 0, 0] : Fin 5 → Nat) a + S1x1x32x64x64.size a ≤ S1x9x32x64x64.size a
  inb_S34x66x66_S32x64x64_0_1_1 : ∀ a, (![0, 1, 1] : Fin 3 → Nat) a + S32x64x64.size a ≤ S34x66x66.size a
  inb_S1x9x32x64x64_S1x1x32x64x64_0_4_0_0_0 : ∀ a, (![0, 4, 0, 0, 0] : Fin 5 → Nat) a + S1x1x32x64x64.size a ≤ S1x9x32x64x64.size a
  inb_S34x66x66_S32x64x64_0_1_2 : ∀ a, (![0, 1, 2] : Fin 3 → Nat) a + S32x64x64.size a ≤ S34x66x66.size a
  inb_S1x9x32x64x64_S1x1x32x64x64_0_5_0_0_0 : ∀ a, (![0, 5, 0, 0, 0] : Fin 5 → Nat) a + S1x1x32x64x64.size a ≤ S1x9x32x64x64.size a
  inb_S34x66x66_S32x64x64_0_2_0 : ∀ a, (![0, 2, 0] : Fin 3 → Nat) a + S32x64x64.size a ≤ S34x66x66.size a
  inb_S1x9x32x64x64_S1x1x32x64x64_0_6_0_0_0 : ∀ a, (![0, 6, 0, 0, 0] : Fin 5 → Nat) a + S1x1x32x64x64.size a ≤ S1x9x32x64x64.size a
  inb_S34x66x66_S32x64x64_0_2_1 : ∀ a, (![0, 2, 1] : Fin 3 → Nat) a + S32x64x64.size a ≤ S34x66x66.size a
  inb_S1x9x32x64x64_S1x1x32x64x64_0_7_0_0_0 : ∀ a, (![0, 7, 0, 0, 0] : Fin 5 → Nat) a + S1x1x32x64x64.size a ≤ S1x9x32x64x64.size a
  inb_S34x66x66_S32x64x64_0_2_2 : ∀ a, (![0, 2, 2] : Fin 3 → Nat) a + S32x64x64.size a ≤ S34x66x66.size a
  inb_S1x9x32x64x64_S1x1x32x64x64_0_8_0_0_0 : ∀ a, (![0, 8, 0, 0, 0] : Fin 5 → Nat) a + S1x1x32x64x64.size a ≤ S1x9x32x64x64.size a
  inb_S34x66x66_S32x64x64_1_0_0 : ∀ a, (![1, 0, 0] : Fin 3 → Nat) a + S32x64x64.size a ≤ S34x66x66.size a
  inb_S34x66x66_S32x64x64_1_0_1 : ∀ a, (![1, 0, 1] : Fin 3 → Nat) a + S32x64x64.size a ≤ S34x66x66.size a
  inb_S34x66x66_S32x64x64_1_0_2 : ∀ a, (![1, 0, 2] : Fin 3 → Nat) a + S32x64x64.size a ≤ S34x66x66.size a
  inb_S34x66x66_S32x64x64_1_1_0 : ∀ a, (![1, 1, 0] : Fin 3 → Nat) a + S32x64x64.size a ≤ S34x66x66.size a
  inb_S34x66x66_S32x64x64_1_1_2 : ∀ a, (![1, 1, 2] : Fin 3 → Nat) a + S32x64x64.size a ≤ S34x66x66.size a
  inb_S34x66x66_S32x64x64_1_2_0 : ∀ a, (![1, 2, 0] : Fin 3 → Nat) a + S32x64x64.size a ≤ S34x66x66.size a
  inb_S34x66x66_S32x64x64_1_2_1 : ∀ a, (![1, 2, 1] : Fin 3 → Nat) a + S32x64x64.size a ≤ S34x66x66.size a
  inb_S34x66x66_S32x64x64_1_2_2 : ∀ a, (![1, 2, 2] : Fin 3 → Nat) a + S32x64x64.size a ≤ S34x66x66.size a
  inb_S34x66x66_S32x64x64_2_0_0 : ∀ a, (![2, 0, 0] : Fin 3 → Nat) a + S32x64x64.size a ≤ S34x66x66.size a
  inb_S34x66x66_S32x64x64_2_0_1 : ∀ a, (![2, 0, 1] : Fin 3 → Nat) a + S32x64x64.size a ≤ S34x66x66.size a
  inb_S34x66x66_S32x64x64_2_0_2 : ∀ a, (![2, 0, 2] : Fin 3 → Nat) a + S32x64x64.size a ≤ S34x66x66.size a
  inb_S34x66x66_S32x64x64_2_1_0 : ∀ a, (![2, 1, 0] : Fin 3 → Nat) a + S32x64x64.size a ≤ S34x66x66.size a
  inb_S34x66x66_S32x64x64_2_1_1 : ∀ a, (![2, 1, 1] : Fin 3 → Nat) a + S32x64x64.size a ≤ S34x66x66.size a
  inb_S34x66x66_S32x64x64_2_1_2 : ∀ a, (![2, 1, 2] : Fin 3 → Nat) a + S32x64x64.size a ≤ S34x66x66.size a
  inb_S34x66x66_S32x64x64_2_2_0 : ∀ a, (![2, 2, 0] : Fin 3 → Nat) a + S32x64x64.size a ≤ S34x66x66.size a
  inb_S34x66x66_S32x64x64_2_2_1 : ∀ a, (![2, 2, 1] : Fin 3 → Nat) a + S32x64x64.size a ≤ S34x66x66.size a
  inb_S34x66x66_S32x64x64_2_2_2 : ∀ a, (![2, 2, 2] : Fin 3 → Nat) a + S32x64x64.size a ≤ S34x66x66.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x64x64.size a ≤ S2x16x32x64x64.size a
  hwx0_0 : ∀ i : grid0.Coords, EltTy.bits .f32 = 32 ∨ (Rect.block (s := S2x16x32x64x64) S1x1x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x32x64x64.size a ≤ S2x432x32x64x64.size a
  hwx0_1 : ∀ i : grid0.Coords, EltTy.bits .f32 = 32 ∨ (Rect.block (s := S2x432x32x64x64) S1x9x32x64x64.size (cc0_transform_1 i) (hinb0_1 i)).WholeWords (EltTy.packing .f32)

variable [Facts₀]

abbrev win0_0 : Pipeline.Window sig grid0 :=
  Pipeline.Window.ofSpec (Memref.whole main_arg0) S1x1x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x9x32x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) && !(k0_cond3 i == 1#1) && !(k0_cond4 i == 1#1) | ⟨_ + 2, h⟩ => absurd h (Nat.not_lt.2 (Nat.le_add_left _ _))

class Facts : Prop extends Facts₀ where

variable [Facts]
-- ==== ReferenceIdeal.lean ====
abbrev S2x16x32x64x64 : Shape := ⟨5, ![2, 16, 32, 64, 64]⟩
abbrev S_ : Shape := ⟨0, ![]⟩
abbrev S2x16x34x66x66 : Shape := ⟨5, ![2, 16, 34, 66, 66]⟩
abbrev S2x16x1x32x64x64 : Shape := ⟨6, ![2, 16, 1, 32, 64, 64]⟩
abbrev S2x16x16x32x64x64 : Shape := ⟨6, ![2, 16, 16, 32, 64, 64]⟩
abbrev S2x16x11x32x64x64 : Shape := ⟨6, ![2, 16, 11, 32, 64, 64]⟩
abbrev S2x16x27x32x64x64 : Shape := ⟨6, ![2, 16, 27, 32, 64, 64]⟩
abbrev S2x432x32x64x64 : Shape := ⟨5, ![2, 432, 32, 64, 64]⟩

abbrev nBuf : Space → Nat
  | .hbm => 62
  | .vmem => 0
  | .smem => 0
  | _ => 0

abbrev bufTy : (tb : Table) → Fin (tcTables nBuf tb) → BufTy
  | .hbm, ⟨0, _⟩ => ⟨S2x16x32x64x64, .f32⟩
  | .hbm, ⟨1, _⟩ => ⟨S_, .i32⟩
  | .hbm, ⟨2, _⟩ => ⟨S_, .f32⟩
  | .hbm, ⟨3, _⟩ => ⟨S2x16x34x66x66, .f32⟩
  | .hbm, ⟨4, _⟩ => ⟨S2x16x32x64x64, .f32⟩
  | .hbm, ⟨5, _⟩ => ⟨S2x16x32x64x64, .f32⟩
  | .hbm, ⟨6, _⟩ => ⟨S2x16x32x64x64, .f32⟩
  | .hbm, ⟨7, _⟩ => ⟨S2x16x32x64x64, .f32⟩
  | .hbm, ⟨8, _⟩ => ⟨S2x16x32x64x64, .f32⟩
  | .hbm, ⟨9, _⟩ => ⟨S2x16x32x64x64, .f32⟩
  | .hbm, ⟨10, _⟩ => ⟨S2x16x32x64x64, .f32⟩
  | .hbm, ⟨11, _⟩ => ⟨S2x16x32x64x64, .f32⟩
  | .hbm, ⟨12, _⟩ => ⟨S2x16x32x64x64, .f32⟩
  | .hbm, ⟨13, _⟩ => ⟨S2x16x32x64x64, .f32⟩
  | .hbm, ⟨14, _⟩ => ⟨S2x16x32x64x64, .f32⟩
  | .hbm, ⟨15, _⟩ => ⟨S2x16x32x64x64, .f32⟩
  | .hbm, ⟨16, _⟩ => ⟨S2x16x32x64x64, .f32⟩
  | .hbm, ⟨17, _⟩ => ⟨S2x16x32x64x64, .f32⟩
  | .hbm, ⟨18, _⟩ => ⟨S2x16x32x64x64, .f32⟩
  | .hbm, ⟨19, _⟩ => ⟨S2x16x32x64x64, .f32⟩
  | .hbm, ⟨20, _⟩ => ⟨S2x16x32x64x64, .f32⟩
  | .hbm, ⟨21, _⟩ => ⟨S2x16x32x64x64, .f32⟩
  | .hbm, ⟨22, _⟩ => ⟨S2x16x32x64x64, .f32⟩
  | .hbm, ⟨23, _⟩ => ⟨S2x16x32x64x64, .f32⟩
  | .hbm, ⟨24, _⟩ => ⟨S2x16x32x64x64, .f32⟩
  | .hbm, ⟨25, _⟩ => ⟨S2x16x32x64x64, .f32⟩
  | .hbm, ⟨26, _⟩ => ⟨S2x16x32x64x64, .f32⟩
  | .hbm, ⟨27, _⟩ => ⟨S2x16x32x64x64, .f32⟩
  | .hbm, ⟨28, _⟩ => ⟨S2x16x32x64x64, .f32⟩
  | .hbm, ⟨29, _⟩ => ⟨S2x16x32x64x64, .f32⟩
  | .hbm, ⟨30, _⟩ => ⟨S2x16x32x64x64, .f32⟩
  | .hbm, ⟨31, _⟩ => ⟨S2x16x1x32x64x64, .f32⟩
  | .hbm, ⟨32, _⟩ => ⟨S2x16x1x32x64x64, .f32⟩
  | .hbm, ⟨33, _⟩ => ⟨S2x16x1x32x64x64, .f32⟩
  | .hbm, ⟨34, _⟩ => ⟨S2x16x1x32x64x64, .f32⟩
  | .hbm, ⟨35, _⟩ => ⟨S2x16x1x32x64x64, .f32⟩
  | .hbm, ⟨36, _⟩ => ⟨S2x16x1x32x64x64, .f32⟩
  | .hbm, ⟨37, _⟩ => ⟨S2x16x1x32x64x64, .f32⟩
  | .hbm, ⟨38, _⟩ => ⟨S2x16x1x32x64x64, .f32⟩
  | .hbm, ⟨39, _⟩ => ⟨S2x16x1x32x64x64, .f32⟩
  | .hbm, ⟨40, _⟩ => ⟨S2x16x1x32x64x64, .f32⟩
  | .hbm, ⟨41, _⟩ => ⟨S2x16x1x32x64x64, .f32⟩
  | .hbm, ⟨42, _⟩ => ⟨S2x16x1x32x64x64, .f32⟩
  | .hbm, ⟨43, _⟩ => ⟨S2x16x1x32x64x64, .f32⟩
  | .hbm, ⟨44, _⟩ => ⟨S2x16x1x32x64x64, .f32⟩
  | .hbm, ⟨45, _⟩ => ⟨S2x16x1x32x64x64, .f32⟩
  | .hbm, ⟨46, _⟩ => ⟨S2x16x1x32x64x64, .f32⟩
  | .hbm, ⟨47, _⟩ => ⟨S2x16x1x32x64x64, .f32⟩
  | .hbm, ⟨48, _⟩ => ⟨S2x16x1x32x64x64, .f32⟩
  | .hbm, ⟨49, _⟩ => ⟨S2x16x1x32x64x64, .f32⟩
  | .hbm, ⟨50, _⟩ => ⟨S2x16x1x32x64x64, .f32⟩
  | .hbm, ⟨51, _⟩ => ⟨S2x16x1x32x64x64, .f32⟩
  | .hbm, ⟨52, _⟩ => ⟨S2x16x1x32x64x64, .f32⟩
  | .hbm, ⟨53, _⟩ => ⟨S2x16x1x32x64x64, .f32⟩
  | .hbm, ⟨54, _⟩ => ⟨S2x16x1x32x64x64, .f32⟩
  | .hbm, ⟨55, _⟩ => ⟨S2x16x1x32x64x64, .f32⟩
  | .hbm, ⟨56, _⟩ => ⟨S2x16x1x32x64x64, .f32⟩
  | .hbm, ⟨57, _⟩ => ⟨S2x16x1x32x64x64, .f32⟩
  | .hbm, ⟨58, _⟩ => ⟨S2x16x16x32x64x64, .f32⟩
  | .hbm, ⟨59, _⟩ => ⟨S2x16x11x32x64x64, .f32⟩
  | .hbm, ⟨60, _⟩ => ⟨S2x16x27x32x64x64, .f32⟩
  | .hbm, ⟨61, _⟩ => ⟨S2x432x32x64x64, .f32⟩
  | _, _ => ⟨S2x16x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩

abbrev nD : Nat := 1
abbrev τ : Topo := Topo.v7x

variable {F : FTy → Type} [FloatOps F]

class Facts₀ : Prop where
  pads_S2x16x32x64x64_S2x16x34x66x66_000_000_110_110_110 : S2x16x32x64x64.Pads (![0, 0, 1, 1, 1] : Fin 5 → Nat) ![0, 0, 1, 1, 1] ![0, 0, 0, 0, 0] S2x16x34x66x66
  h_S_ : 0 < S_.numel
  slices_S2x16x34x66x66_S2x16x32x64x64_0_0_0_0_0 : S2x16x34x66x66.Slices ![0, 0, 0, 0, 0] S2x16x32x64x64
  slices_S2x16x34x66x66_S2x16x32x64x64_0_0_0_0_1 : S2x16x34x66x66.Slices ![0, 0, 0, 0, 1] S2x16x32x64x64
  slices_S2x16x34x66x66_S2x16x32x64x64_0_0_0_0_2 : S2x16x34x66x66.Slices ![0, 0, 0, 0, 2] S2x16x32x64x64
  slices_S2x16x34x66x66_S2x16x32x64x64_0_0_0_1_0 : S2x16x34x66x66.Slices ![0, 0, 0, 1, 0] S2x16x32x64x64
  slices_S2x16x34x66x66_S2x16x32x64x64_0_0_0_1_1 : S2x16x34x66x66.Slices ![0, 0, 0, 1, 1] S2x16x32x64x64
  slices_S2x16x34x66x66_S2x16x32x64x64_0_0_0_1_2 : S2x16x34x66x66.Slices ![0, 0, 0, 1, 2] S2x16x32x64x64
  slices_S2x16x34x66x66_S2x16x32x64x64_0_0_0_2_0 : S2x16x34x66x66.Slices ![0, 0, 0, 2, 0] S2x16x32x64x64
  slices_S2x16x34x66x66_S2x16x32x64x64_0_0_0_2_1 : S2x16x34x66x66.Slices ![0, 0, 0, 2, 1] S2x16x32x64x64
  slices_S2x16x34x66x66_S2x16x32x64x64_0_0_0_2_2 : S2x16x34x66x66.Slices ![0, 0, 0, 2, 2] S2x16x32x64x64
  slices_S2x16x34x66x66_S2x16x32x64x64_0_0_1_0_0 : S2x16x34x66x66.Slices ![0, 0, 1, 0, 0] S2x16x32x64x64
  slices_S2x16x34x66x66_S2x16x32x64x64_0_0_1_0_1 : S2x16x34x66x66.Slices ![0, 0, 1, 0, 1] S2x16x32x64x64
  slices_S2x16x34x66x66_S2x16x32x64x64_0_0_1_0_2 : S2x16x34x66x66.Slices ![0, 0, 1, 0, 2] S2x16x32x64x64
  slices_S2x16x34x66x66_S2x16x32x64x64_0_0_1_1_0 : S2x16x34x66x66.Slices ![0, 0, 1, 1, 0] S2x16x32x64x64
  slices_S2x16x34x66x66_S2x16x32x64x64_0_0_1_1_1 : S2x16x34x66x66.Slices ![0, 0, 1, 1, 1] S2x16x32x64x64
  slices_S2x16x34x66x66_S2x16x32x64x64_0_0_1_1_2 : S2x16x34x66x66.Slices ![0, 0, 1, 1, 2] S2x16x32x64x64
  slices_S2x16x34x66x66_S2x16x32x64x64_0_0_1_2_0 : S2x16x34x66x66.Slices ![0, 0, 1, 2, 0] S2x16x32x64x64
  slices_S2x16x34x66x66_S2x16x32x64x64_0_0_1_2_1 : S2x16x34x66x66.Slices ![0, 0, 1, 2, 1] S2x16x32x64x64
  slices_S2x16x34x66x66_S2x16x32x64x64_0_0_1_2_2 : S2x16x34x66x66.Slices ![0, 0, 1, 2, 2] S2x16x32x64x64
  slices_S2x16x34x66x66_S2x16x32x64x64_0_0_2_0_0 : S2x16x34x66x66.Slices ![0, 0, 2, 0, 0] S2x16x32x64x64
  slices_S2x16x34x66x66_S2x16x32x64x64_0_0_2_0_1 : S2x16x34x66x66.Slices ![0, 0, 2, 0, 1] S2x16x32x64x64
  slices_S2x16x34x66x66_S2x16x32x64x64_0_0_2_0_2 : S2x16x34x66x66.Slices ![0, 0, 2, 0, 2] S2x16x32x64x64
  slices_S2x16x34x66x66_S2x16x32x64x64_0_0_2_1_0 : S2x16x34x66x66.Slices ![0, 0, 2, 1, 0] S2x16x32x64x64
  slices_S2x16x34x66x66_S2x16x32x64x64_0_0_2_1_1 : S2x16x34x66x66.Slices ![0, 0, 2, 1, 1] S2x16x32x64x64
  slices_S2x16x34x66x66_S2x16x32x64x64_0_0_2_1_2 : S2x16x34x66x66.Slices ![0, 0, 2, 1, 2] S2x16x32x64x64
  slices_S2x16x34x66x66_S2x16x32x64x64_0_0_2_2_0 : S2x16x34x66x66.Slices ![0, 0, 2, 2, 0] S2x16x32x64x64
  slices_S2x16x34x66x66_S2x16x32x64x64_0_0_2_2_1 : S2x16x34x66x66.Slices ![0, 0, 2, 2, 1] S2x16x32x64x64
  slices_S2x16x34x66x66_S2x16x32x64x64_0_0_2_2_2 : S2x16x34x66x66.Slices ![0, 0, 2, 2, 2] S2x16x32x64x64
  bcast_S2x16x32x64x64_S2x16x1x32x64x64_0_1_3_4_5 : S2x16x32x64x64.BroadcastsInDim S2x16x1x32x64x64 (![0, 1, 3, 4, 5] : Fin 5 → Fin S2x16x1x32x64x64.rank)
  concatenates_S2x16x1x32x64x64_S2x16x1x32x64x64_S2x16x1x32x64x64_S2x16x1x32x64x64_S2x16x1x32x64x64_S2x16x1x32x64x64_S2x16x1x32x64x64_S2x16x1x32x64x64_S2x16x1x32x64x64_S2x16x1x32x64x64_S2x16x1x32x64x64_S2x16x1x32x64x64_S2x16x1x32x64x64_S2x16x1x32x64x64_S2x16x1x32x64x64_S2x16x1x32x64x64_S2x16x16x32x64x64_d2 : Shape.Concatenates [S2x16x1x32x64x64, S2x16x1x32x64x64, S2x16x1x32x64x64, S2x16x1x32x64x64, S2x16x1x32x64x64, S2x16x1x32x64x64, S2x16x1x32x64x64, S2x16x1x32x64x64, S2x16x1x32x64x64, S2x16x1x32x64x64, S2x16x1x32x64x64, S2x16x1x32x64x64, S2x16x1x32x64x64, S2x16x1x32x64x64, S2x16x1x32x64x64, S2x16x1x32x64x64] S2x16x16x32x64x64 2
  concatenates_S2x16x1x32x64x64_S2x16x1x32x64x64_S2x16x1x32x64x64_S2x16x1x32x64x64_S2x16x1x32x64x64_S2x16x1x32x64x64_S2x16x1x32x64x64_S2x16x1x32x64x64_S2x16x1x32x64x64_S2x16x1x32x64x64_S2x16x1x32x64x64_S2x16x11x32x64x64_d2 : Shape.Concatenates [S2x16x1x32x64x64, S2x16x1x32x64x64, S2x16x1x32x64x64, S2x16x1x32x64x64, S2x16x1x32x64x64, S2x16x1x32x64x64, S2x16x1x32x64x64, S2x16x1x32x64x64, S2x16x1x32x64x64, S2x16x1x32x64x64, S2x16x1x32x64x64] S2x16x11x32x64x64 2
  concatenates_S2x16x16x32x64x64_S2x16x11x32x64x64_S2x16x27x32x64x64_d2 : Shape.Concatenates [S2x16x16x32x64x64, S2x16x11x32x64x64] S2x16x27x32x64x64 2
  shapeCasts_S2x16x27x32x64x64_S2x432x32x64x64 : S2x16x27x32x64x64.ShapeCasts S2x432x32x64x64

variable [Facts₀]

class Facts : Prop extends Facts₀ where

variable [Facts]
-- ==== Proof.UnfoldSpec.lean ====
/-
  The function both programs compute: the 3×3×3 neighbourhood unfold of a five-axis array
  x : [2, 16, 32, 64, 64] with zero padding of one voxel on each side of the three spatial axes.

  For a batch b and a channel ch let P be the 34 × 66 × 66 volume that holds x[b, ch] at the positions
  (Z, Y, X) with 1 ≤ Z ≤ 32, 1 ≤ Y ≤ 64, 1 ≤ X ≤ 64 (shifted by one) and 0 everywhere else. The result
  has 27 output channels per input channel: output channel q = 27·ch + n with n = 9·dz + 3·dy + dx
  (dz, dy, dx ∈ {0, 1, 2}) is the window of P that starts at (dz, dy, dx):

      out[b, q, z, y, x] = P[z + dz, y + dy, x + dx].

  No arithmetic is done on the entries: each output entry is one input entry or the zero of the padding,
  so the statement holds for every extended real, finite or not.
-/
import Idealize.ShloMosaic.PureOps.Ideal
import Idealize.ShloMosaic.Lib.ValueIdx

noncomputable section

namespace Cert.Unfold

open Idealize.ShloMosaic Idealize.ShloMosaic.ValueIdx

/-- The shape of the argument array. -/
abbrev SX : Shape := ⟨5, ![2, 16, 32, 64, 64]⟩
/-- The shape of the result array. -/
abbrev SO : Shape := ⟨5, ![2, 432, 32, 64, 64]⟩

/-- The padded volume P of batch `b`, channel `ch`, at the position (Z, Y, X) given as natural numbers:
    the entry of `x` one step back on each axis when the position is interior, zero in the one-voxel halo
    (and, harmlessly, at any position outside the 34 × 66 × 66 volume). -/
def padded (x : SX.Idx → EReal) (b : Fin 2) (ch : Fin 16) (Z Y X : Nat) : EReal :=
  if h : (1 ≤ Z ∧ Z ≤ 32) ∧ (1 ≤ Y ∧ Y ≤ 64) ∧ (1 ≤ X ∧ X ≤ 64) then
    x (ix5 b ch (⟨Z - 1, by omega⟩ : Fin 32) (⟨Y - 1, by omega⟩ : Fin 64) (⟨X - 1, by omega⟩ : Fin 64))
  else 0

/-- An interior position reads the argument, one step back on each spatial axis. -/
theorem padded_inside (x : SX.Idx → EReal) (b : Fin 2) (ch : Fin 16) (Z Y X : Nat) (k : Fin 32) (l : Fin 64) (w : Fin 64)
    (hZ : Z = k.val + 1) (hY : Y = l.val + 1) (hX : X = w.val + 1) :
    padded x b ch Z Y X = x (ix5 b ch k l w) := by
  subst hZ hY hX
  unfold padded
  rw [dif_pos ⟨⟨by omega, by have := k.isLt; omega⟩, ⟨by omega, by have := l.isLt; omega⟩, ⟨by omega, by have := w.isLt; omega⟩⟩]
  rfl

/-- A position in the halo (or outside the volume) reads zero. -/
theorem padded_outside (x : SX.Idx → EReal) (b : Fin 2) (ch : Fin 16) (Z Y X : Nat)
    (h : ¬((1 ≤ Z ∧ Z ≤ 32) ∧ (1 ≤ Y ∧ Y ≤ 64) ∧ (1 ≤ X ∧ X ≤ 64))) :
    padded x b ch Z Y X = 0 := by
  unfold padded
  rw [dif_neg h]

/-- THE RESULT, entry by entry over explicit coordinates: output channel `q` belongs to input channel `q / 27`
    and to the window offset `n = q % 27`, read as (n / 9, n / 3 % 3, n % 3). -/
def unfoldAt (x : SX.Idx → EReal) (b : Fin 2) (q : Fin 432) (z : Fin 32) (y : Fin 64) (w : Fin 64) : EReal :=
  padded x b (⟨q.val / 27, by have := q.isLt; omega⟩ : Fin 16)
    (z.val + q.val % 27 / 9) (y.val + q.val % 27 / 3 % 3) (w.val + q.val % 27 % 3)

/-- The result array as one function of the argument array. -/
def unfold3 (x : SX.Idx → EReal) : SO.Idx → EReal :=
  fun j => unfoldAt x (j 0) (j 1) (j 2) (j 3) (j 4)

theorem unfold3_ix5 (x : SX.Idx → EReal) (b : Fin 2) (q : Fin 432) (z : Fin 32) (y : Fin 64) (w : Fin 64) :
    unfold3 x (ix5 b q z y w) = unfoldAt x b q z y w := rfl

end Cert.Unfold

end
-- ==== Proof.KernelBlocks.lean ====
/-
  What the kernel's body does to one (batch, channel) volume, as pure functions of vectors.

  The scratch buffer [34, 66, 66] is filled with zeros and the input block [1, 1, 32, 64, 64] is copied into its
  interior (positions 1 … 32, 1 … 64, 1 … 64): afterwards it holds the zero-padded volume of that batch and
  channel. At depth offset g ∈ {0, 1, 2} the body then stores nine windows of the scratch, the window with
  in-plane offset (k / 3, k % 3) into channel k of the output block [1, 9, 32, 64, 64]:

      block[0, k, z, y, x] = scratch[z + g, y + k / 3, x + k % 3].
-/
import proofs.«120624_j45243185496328_1_alg».proof.Proof.Gen.KernelIdeal.Skeleton
import proofs.«120624_j45243185496328_1_alg».proof.Proof.UnfoldSpec
import Idealize.ShloMosaic.Lib.Pipeline.Value
import Idealize.ShloMosaic.PureOps.Ideal.Laws

noncomputable section

namespace Cert.Unfold

open Idealize.ShloMosaic Idealize.ShloMosaic.ValueIdx Cert.KernelIdeal Cert.KernelIdeal.Gen

/-- The zero-padded volume of batch `b`, channel `ch` of the array `X`, as a [34, 66, 66] vector. -/
def volume (X : SX.Idx → EReal) (b : Fin 2) (ch : Fin 16) : Vec Ideal S34x66x66 .f32 :=
  fun s => padded X b ch (s 0).val (s 1).val (s 2).val

theorem volume_ix3 (X : SX.Idx → EReal) (b : Fin 2) (ch : Fin 16) (Z : Fin 34) (Y W : Fin 66) :
    volume X b ch (ix3 Z Y W) = padded X b ch Z.val Y.val W.val := rfl

/-- Entry (z, y, w) of the window of the volume `s` at depth offset `g` and in-plane offset (k / 3, k % 3). -/
def windowAt (g : Nat) (hg : g ≤ 2) (s : Vec Ideal S34x66x66 .f32) (k : Fin 9) (z : Fin 32) (y w : Fin 64) : EReal :=
  s (ix3 (⟨z.val + g, by have := z.isLt; omega⟩ : Fin 34)
    (⟨y.val + k.val / 3, by have := y.isLt; have := k.isLt; omega⟩ : Fin 66)
    (⟨w.val + k.val % 3, by have := w.isLt; omega⟩ : Fin 66))

/-- The nine windows of the volume `s` at depth offset `g`, as one output block. -/
def windows (g : Nat) (hg : g ≤ 2) (s : Vec Ideal S34x66x66 .f32) : Vec Ideal S1x9x32x64x64 .f32 :=
  fun y => windowAt g hg s (y 1) (y 2) (y 3) (y 4)

theorem windows_ix5 (g : Nat) (hg : g ≤ 2) (s : Vec Ideal S34x66x66 .f32) (u : Fin 1) (k : Fin 9) (z : Fin 32) (y w : Fin 64) :
    windows g hg s (ix5 u k z y w) = windowAt g hg s k z y w := rfl

theorem zeros3 : (![0, 0, 0] : Fin 3 → Nat) = fun _ => 0 := funext fun a => by fin_cases a <;> rfl

/-- The fill stores zero everywhere. -/
theorem fill_apply (s : S34x66x66.Idx) : k0_pay1 (F := Ideal) s = 0 := by
  show shapeCast S34x66x66 (broadcast S34x66x66 (Scalar.ofBits (F := Ideal) .f32 0x00000000#32)) shapeCasts_S34x66x66_S34x66x66 s = 0
  refine (shapeCast_apply _ _ s s rfl).trans ?_
  show Ideal.ofBits .f32 0x00000000#32 = 0
  exact Ideal.ofBits_zero_f32

/-- The copy stores the input block with its two unit axes dropped. -/
theorem copy_apply (xb : Vec Ideal S1x1x32x64x64 .f32) (z : Fin 32) (y w : Fin 64) :
    k0_pay2 (F := Ideal) xb (ix3 z y w) = xb (ix5 (0 : Fin 1) (0 : Fin 1) z y w) := by
  show shapeCast S32x64x64 (shapeCast S32x64x64 xb shapeCasts_S1x1x32x64x64_S32x64x64) shapeCasts_S32x64x64_S32x64x64 (ix3 z y w) = _
  refine (shapeCast_apply _ _ (ix3 z y w) (ix3 z y w) rfl).trans ?_
  refine shapeCast_apply xb _ (ix3 z y w) (ix5 (0 : Fin 1) (0 : Fin 1) z y w) ?_
  rw [Shape.rowMajor_val_five, Shape.rowMajor_val_three]
  show (((0 * 1 + 0) * 32 + z.val) * 64 + y.val) * 64 + w.val = (z.val * 64 + y.val) * 64 + w.val
  omega

/-- THE SCRATCH AFTER THE FILL AND THE COPY, whatever it held before: the zero-padded volume of the batch and
    channel whose block was copied. The copy is the later store, so it wins on the interior; the halo keeps the
    fill's zeros. -/
theorem scratch_canon (X : SX.Idx → EReal) (b : Fin 2) (ch : Fin 16) (xb : Vec Ideal S1x1x32x64x64 .f32)
    (hxb : ∀ (z : Fin 32) (y w : Fin 64), xb (ix5 (0 : Fin 1) (0 : Fin 1) z y w) = X (ix5 b ch z y w))
    (inb1 : ∀ a, (![1, 1, 1] : Fin 3 → Nat) a + (![32, 64, 64] : Fin 3 → Nat) a ≤ S34x66x66.size a)
    (inb0 : ∀ a, (![0, 0, 0] : Fin 3 → Nat) a + S34x66x66.size a ≤ S34x66x66.size a) :
    View.canon (Val := Elt Ideal)
      [(⟨Rect.unit ![1, 1, 1] ![32, 64, 64] inb1, k0_pay2 (F := Ideal) xb⟩ : View.Piece (Elt Ideal) S34x66x66 .f32),
        ⟨Rect.unit ![0, 0, 0] S34x66x66.size inb0, k0_pay1 (F := Ideal)⟩] = volume X b ch := by
  funext s
  obtain ⟨Z, Y, W, rfl⟩ : ∃ (Z : Fin 34) (Y W : Fin 66), s = ix3 Z Y W := ⟨s 0, s 1, s 2, eq_ix3 s⟩
  rw [volume_ix3]
  by_cases hin : (1 ≤ Z.val ∧ Z.val ≤ 32) ∧ (1 ≤ Y.val ∧ Y.val ≤ 64) ∧ (1 ≤ W.val ∧ W.val ≤ 64)
  · obtain ⟨⟨hz1, hz2⟩, ⟨hy1, hy2⟩, ⟨hw1, hw2⟩⟩ := hin
    have he : (Rect.unit ![1, 1, 1] ![32, 64, 64] inb1).emb
        (ix3 (⟨Z.val - 1, by omega⟩ : Fin 32) (⟨Y.val - 1, by omega⟩ : Fin 64) (⟨W.val - 1, by omega⟩ : Fin 64)) = ix3 Z Y W :=
      funext fun a => Fin.ext (match a with
        | ⟨0, _⟩ => by show 1 + 1 * (Z.val - 1) = Z.val; omega
        | ⟨1, _⟩ => by show 1 + 1 * (Y.val - 1) = Y.val; omega
        | ⟨2, _⟩ => by show 1 + 1 * (W.val - 1) = W.val; omega)
    rw [← he, View.canon_cons_emb, copy_apply, hxb]
    exact (padded_inside X b ch _ _ _ _ _ _ (by show Z.val = Z.val - 1 + 1; omega) (by show Y.val = Y.val - 1 + 1; omega)
      (by show W.val = W.val - 1 + 1; omega)).symm
  · have hnm : ix3 Z Y W ∉ (Rect.unit ![1, 1, 1] ![32, 64, 64] inb1).set := by
      rw [Rect.mem_set_unit]
      intro hall
      have h0 : 1 ≤ Z.val ∧ Z.val < 1 + 32 := hall (0 : Fin 3)
      have h1 : 1 ≤ Y.val ∧ Y.val < 1 + 64 := hall (1 : Fin 3)
      have h2 : 1 ≤ W.val ∧ W.val < 1 + 64 := hall (2 : Fin 3)
      exact hin ⟨⟨h0.1, by omega⟩, ⟨h1.1, by omega⟩, ⟨h2.1, by omega⟩⟩
    refine (View.canon_cons_of_not_mem (Val := Elt Ideal)
      (⟨Rect.unit ![1, 1, 1] ![32, 64, 64] inb1, k0_pay2 (F := Ideal) xb⟩ : View.Piece (Elt Ideal) S34x66x66 .f32)
      [(⟨Rect.unit ![0, 0, 0] S34x66x66.size inb0, k0_pay1 (F := Ideal)⟩ : View.Piece (Elt Ideal) S34x66x66 .f32)]
      (y := ix3 Z Y W) hnm).trans ?_
    refine (congrFun (View.canon_unit_zero (Val := Elt Ideal) (S := S34x66x66) (e := .f32) zeros3 inb0 (k0_pay1 (F := Ideal))) (ix3 Z Y W)).trans ?_
    rw [fill_apply, padded_outside X b ch _ _ _ hin]

/-- ONE OUTPUT STORE: the load of the scratch `s` through the box at (g, j, l), given two unit axes in front, is
    channel k = 3 j + l of the block of windows at depth offset g — stated at the store's own rectangle, for any
    evidence of the side conditions. -/
theorem window_piece (s : Vec Ideal S34x66x66 .f32) (g j l k : Nat) (hg : g ≤ 2) (hj : j ≤ 2) (hl : l ≤ 2) (hk : k = 3 * j + l)
    (inbS : ∀ a, (![g, j, l] : Fin 3 → Nat) a + (![32, 64, 64] : Fin 3 → Nat) a ≤ S34x66x66.size a)
    (inbO : ∀ a, (![0, k, 0, 0, 0] : Fin 5 → Nat) a + (![1, 1, 32, 64, 64] : Fin 5 → Nat) a ≤ S1x9x32x64x64.size a)
    (hsc : S32x64x64.ShapeCasts S1x1x32x64x64)
    (x : (Rect.unit (s := S1x9x32x64x64) ![0, k, 0, 0, 0] ![1, 1, 32, 64, 64] inbO).shape.Idx) :
    shapeCast S1x1x32x64x64 (View.ld s (Rect.unit (s := S34x66x66) ![g, j, l] ![32, 64, 64] inbS)) hsc x
      = windows g hg s ((Rect.unit (s := S1x9x32x64x64) ![0, k, 0, 0, 0] ![1, 1, 32, 64, 64] inbO).emb x) := by
  obtain ⟨u0, u1, z, y, w, rfl⟩ : ∃ (u0 u1 : Fin 1) (z : Fin 32) (y w : Fin 64), x = ix5 u0 u1 z y w :=
    ⟨x 0, x 1, x 2, x 3, x 4, eq_ix5 x⟩
  subst hk
  refine (shapeCast_apply _ hsc (ix5 u0 u1 z y w) (ix3 z y w) ?_).trans ?_
  · rw [Shape.rowMajor_val_three, Shape.rowMajor_val_five]
    show (z.val * 64 + y.val) * 64 + w.val = (((u0.val * 1 + u1.val) * 32 + z.val) * 64 + y.val) * 64 + w.val
    have := u0.isLt; have := u1.isLt; omega
  · show s ((Rect.unit (s := S34x66x66) ![g, j, l] ![32, 64, 64] inbS).emb (ix3 z y w)) = s (ix3 _ _ _)
    refine congrArg s (funext fun a => Fin.ext ?_)
    match a with
    | ⟨0, _⟩ => show g + 1 * z.val = (0 + 1 * z.val) + g; omega
    | ⟨1, _⟩ => show j + 1 * y.val = (0 + 1 * y.val) + (3 * j + l + 1 * u1.val) / 3; have := u1.isLt; omega
    | ⟨2, _⟩ => show l + 1 * w.val = (0 + 1 * w.val) + (3 * j + l + 1 * u1.val) % 3; have := u1.isLt; omega

end Cert.Unfold

end
-- ==== Proof.KernelCases.lean ====
/-
  What each control case of the body leaves behind, as the pure functions of KernelBlocks.

  Case A (first point of a triple: depth offset 0) fills and copies, so the scratch ends at the padded volume of the
  block it was given, and the nine stores read that volume back: the output block is its windows at depth 0.
  Cases B and C (depth offsets 1 and 2) leave the scratch alone and store its windows at depth 1 and 2.
-/
import proofs.«120624_j45243185496328_1_alg».proof.Proof.Gen.KernelIdeal.Frame
import proofs.«120624_j45243185496328_1_alg».proof.Proof.KernelBlocks

set_option maxRecDepth 16384

noncomputable section

namespace Cert.Unfold

open Idealize.ShloMosaic Idealize.ShloMosaic.TcCoe Idealize.ShloMosaic.Tactic Idealize.ShloMosaic.ValueIdx Idealize.SL.Sem
open Cert.KernelIdeal Cert.KernelIdeal.Gen

theorem zeros5 : (![0, 0, 0, 0, 0] : Fin 5 → Nat) = fun _ => 0 := funext fun a => by fin_cases a <;> rfl

/-- One output store of case A: the load comes AFTER the fill and the copy, so it reads the padded volume. -/
theorem window_piece_after_fill (X : SX.Idx → EReal) (b : Fin 2) (ch : Fin 16) (xb : Vec Ideal S1x1x32x64x64 .f32)
    (hxb : ∀ (z : Fin 32) (y w : Fin 64), xb (ix5 (0 : Fin 1) (0 : Fin 1) z y w) = X (ix5 b ch z y w))
    (v : View sig .tc .vmem S34x66x66 .f32) (g j l k : Nat) (hg : g ≤ 2) (hj : j ≤ 2) (hl : l ≤ 2) (hk : k = 3 * j + l)
    (inb1 : ∀ a, (![1, 1, 1] : Fin 3 → Nat) a + (![32, 64, 64] : Fin 3 → Nat) a ≤ S34x66x66.size a)
    (inb0 : ∀ a, (![0, 0, 0] : Fin 3 → Nat) a + S34x66x66.size a ≤ S34x66x66.size a)
    (inbS : ∀ a, (![g, j, l] : Fin 3 → Nat) a + (![32, 64, 64] : Fin 3 → Nat) a ≤ S34x66x66.size a)
    (inbO : ∀ a, (![0, k, 0, 0, 0] : Fin 5 → Nat) a + (![1, 1, 32, 64, 64] : Fin 5 → Nat) a ≤ S1x9x32x64x64.size a)
    (hsc : S32x64x64.ShapeCasts S1x1x32x64x64)
    (x : (Rect.unit (s := S1x9x32x64x64) ![0, k, 0, 0, 0] ![1, 1, 32, 64, 64] inbO).shape.Idx) :
    shapeCast S1x1x32x64x64
        (v.readCov (Val := Elt Ideal)
          [(⟨Rect.unit ![1, 1, 1] ![32, 64, 64] inb1, k0_pay2 (F := Ideal) xb⟩ : View.Piece (Elt Ideal) S34x66x66 .f32),
            ⟨Rect.unit ![0, 0, 0] S34x66x66.size inb0, k0_pay1 (F := Ideal)⟩]
          (Rect.unit (s := S34x66x66) ![g, j, l] ![32, 64, 64] inbS).toLoadRect) hsc x
      = windows g hg (volume X b ch) ((Rect.unit (s := S1x9x32x64x64) ![0, k, 0, 0, 0] ![1, 1, 32, 64, 64] inbO).emb x) := by
  rw [View.readCov_eq_canon_ld (Val := Elt Ideal) v _ (Rect.unit (s := S34x66x66) ![g, j, l] ![32, 64, 64] inbS)
    (fun y => ⟨(⟨Rect.unit ![0, 0, 0] S34x66x66.size inb0, k0_pay1 (F := Ideal)⟩ : View.Piece (Elt Ideal) S34x66x66 .f32),
      List.mem_cons_of_mem _ (List.mem_singleton_self _), View.mem_set_unit_zero zeros3 inb0 y⟩),
    scratch_canon X b ch xb hxb inb1 inb0]
  exact window_piece (volume X b ch) g j l k hg hj hl hk inbS inbO hsc x

/-- CASE A, THE SCRATCH: the padded volume of the batch and channel whose block the point was given. -/
theorem scratch_A (c : Dev nD) (i : grid0.Coords) (arg3 : Memref sig .tc .vmem S1x1x32x64x64 .f32) (harg3 : arg3.IsWhole) (arg4 : Memref sig .tc .vmem S1x9x32x64x64 .f32) (harg4 : arg4.IsWhole) (arg5 : Memref sig .tc .vmem S34x66x66 .f32) (harg5 : arg5.IsWhole) (hc0 : cond0_0 i) (hc1 : cond0_1 i) (hc2 : ¬cond0_2 i) (hc3 : ¬cond0_3 i)
    (x0 : Vec Ideal S1x1x32x64x64 .f32) (X : SX.Idx → EReal) (b : Fin 2) (ch : Fin 16)
    (hx0 : ∀ (z : Fin 32) (y w : Fin 64), x0 (ix5 (0 : Fin 1) (0 : Fin 1) z y w) = X (ix5 b ch z y w)) :
    sout0_A_0 (F := Ideal) c i arg3 harg3 arg4 harg4 arg5 harg5 hc0 hc1 hc2 hc3 x0 = volume X b ch := by
  unfold sout0_A_0
  rw [View.read_writes_eq_canon _ _ _ (scover0_A_0 c i arg3 harg3 arg4 harg4 arg5 harg5 hc0 hc1 hc2 hc3 x0)]
  unfold kernelRun0_A
  dsimp only
  sl_unfold_words
  simp only [View.readAt_eq_ld, harg3.read_unread, View.ld_unit_zero (S := S1x1x32x64x64) zeros5]
  exact scratch_canon X b ch x0 hx0 _ _

/-- CASE A, THE OUTPUT BLOCK: the nine windows of that volume at depth offset 0. -/
theorem out_A (c : Dev nD) (i : grid0.Coords) (arg3 : Memref sig .tc .vmem S1x1x32x64x64 .f32) (harg3 : arg3.IsWhole) (arg4 : Memref sig .tc .vmem S1x9x32x64x64 .f32) (harg4 : arg4.IsWhole) (arg5 : Memref sig .tc .vmem S34x66x66 .f32) (harg5 : arg5.IsWhole) (hc0 : cond0_0 i) (hc1 : cond0_1 i) (hc2 : ¬cond0_2 i) (hc3 : ¬cond0_3 i)
    (x0 : Vec Ideal S1x1x32x64x64 .f32) (X : SX.Idx → EReal) (b : Fin 2) (ch : Fin 16)
    (hx0 : ∀ (z : Fin 32) (y w : Fin 64), x0 (ix5 (0 : Fin 1) (0 : Fin 1) z y w) = X (ix5 b ch z y w)) :
    out0_A_1 (F := Ideal) c i arg3 harg3 arg4 harg4 arg5 harg5 hc0 hc1 hc2 hc3 x0 = windows 0 (by omega) (volume X b ch) := by
  unfold out0_A_1
  rw [View.read_writes_eq_canon _ _ _ (cover0_A_1 c i arg3 harg3 arg4 harg4 arg5 harg5 hc0 hc1 hc2 hc3 x0)]
  funext y
  refine View.canon_apply_of_pieces (windows 0 (by omega) (volume X b ch)) _ ?_ y (cover0_A_1 c i arg3 harg3 arg4 harg4 arg5 harg5 hc0 hc1 hc2 hc3 x0 y)
  unfold kernelRun0_A
  dsimp only
  sl_unfold_words
  simp only [View.readAt_eq_ld, harg3.read_unread, View.ld_unit_zero (S := S1x1x32x64x64) zeros5]
  intro p hp
  simp only [List.mem_cons, List.not_mem_nil, or_false] at hp
  rcases hp with rfl | rfl | rfl | rfl | rfl | rfl | rfl | rfl | rfl
  · exact fun x => window_piece_after_fill X b ch x0 hx0 arg5.view 0 2 2 8 (by omega) (by omega) (by omega) rfl (by decide) (by decide) (by decide) (by decide) (by decide) x
  · exact fun x => window_piece_after_fill X b ch x0 hx0 arg5.view 0 2 1 7 (by omega) (by omega) (by omega) rfl (by decide) (by decide) (by decide) (by decide) (by decide) x
  · exact fun x => window_piece_after_fill X b ch x0 hx0 arg5.view 0 2 0 6 (by omega) (by omega) (by omega) rfl (by decide) (by decide) (by decide) (by decide) (by decide) x
  · exact fun x => window_piece_after_fill X b ch x0 hx0 arg5.view 0 1 2 5 (by omega) (by omega) (by omega) rfl (by decide) (by decide) (by decide) (by decide) (by decide) x
  · exact fun x => window_piece_after_fill X b ch x0 hx0 arg5.view 0 1 1 4 (by omega) (by omega) (by omega) rfl (by decide) (by decide) (by decide) (by decide) (by decide) x
  · exact fun x => window_piece_after_fill X b ch x0 hx0 arg5.view 0 1 0 3 (by omega) (by omega) (by omega) rfl (by decide) (by decide) (by decide) (by decide) (by decide) x
  · exact fun x => window_piece_after_fill X b ch x0 hx0 arg5.view 0 0 2 2 (by omega) (by omega) (by omega) rfl (by decide) (by decide) (by decide) (by decide) (by decide) x
  · exact fun x => window_piece_after_fill X b ch x0 hx0 arg5.view 0 0 1 1 (by omega) (by omega) (by omega) rfl (by decide) (by decide) (by decide) (by decide) (by decide) x
  · exact fun x => window_piece_after_fill X b ch x0 hx0 arg5.view 0 0 0 0 (by omega) (by omega) (by omega) rfl (by decide) (by decide) (by decide) (by decide) (by decide) x

/-- CASE B, THE OUTPUT BLOCK: the nine windows at depth offset 1 of whatever the scratch holds. -/
theorem out_B (c : Dev nD) (i : grid0.Coords) (arg3 : Memref sig .tc .vmem S1x1x32x64x64 .f32) (harg3 : arg3.IsWhole) (arg4 : Memref sig .tc .vmem S1x9x32x64x64 .f32) (harg4 : arg4.IsWhole) (arg5 : Memref sig .tc .vmem S34x66x66 .f32) (harg5 : arg5.IsWhole) (hc0 : ¬cond0_0 i) (hc1 : ¬cond0_1 i) (hc2 : cond0_2 i) (hc3 : ¬cond0_3 i)
    (x0 : Vec Ideal S1x1x32x64x64 .f32) (xs0 : Vec Ideal S34x66x66 .f32) :
    out0_B_1 (F := Ideal) c i arg3 harg3 arg4 harg4 arg5 harg5 hc0 hc1 hc2 hc3 x0 xs0 = windows 1 (by omega) xs0 := by
  unfold out0_B_1
  rw [View.read_writes_eq_canon _ _ _ (cover0_B_1 c i arg3 harg3 arg4 harg4 arg5 harg5 hc0 hc1 hc2 hc3 x0 xs0)]
  funext y
  refine View.canon_apply_of_pieces (windows 1 (by omega) xs0) _ ?_ y (cover0_B_1 c i arg3 harg3 arg4 harg4 arg5 harg5 hc0 hc1 hc2 hc3 x0 xs0 y)
  unfold kernelRun0_B
  dsimp only
  sl_unfold_words
  simp only [View.readAt_eq_ld, harg5.read_unread]
  intro p hp
  simp only [List.mem_cons, List.not_mem_nil, or_false] at hp
  rcases hp with rfl | rfl | rfl | rfl | rfl | rfl | rfl | rfl | rfl
  · exact fun x => window_piece xs0 1 2 2 8 (by omega) (by omega) (by omega) rfl (by decide) (by decide) (by decide) x
  · exact fun x => window_piece xs0 1 2 1 7 (by omega) (by omega) (by omega) rfl (by decide) (by decide) (by decide) x
  · exact fun x => window_piece xs0 1 2 0 6 (by omega) (by omega) (by omega) rfl (by decide) (by decide) (by decide) x
  · exact fun x => window_piece xs0 1 1 2 5 (by omega) (by omega) (by omega) rfl (by decide) (by decide) (by decide) x
  · exact fun x => window_piece xs0 1 1 1 4 (by omega) (by omega) (by omega) rfl (by decide) (by decide) (by decide) x
  · exact fun x => window_piece xs0 1 1 0 3 (by omega) (by omega) (by omega) rfl (by decide) (by decide) (by decide) x
  · exact fun x => window_piece xs0 1 0 2 2 (by omega) (by omega) (by omega) rfl (by decide) (by decide) (by decide) x
  · exact fun x => window_piece xs0 1 0 1 1 (by omega) (by omega) (by omega) rfl (by decide) (by decide) (by decide) x
  · exact fun x => window_piece xs0 1 0 0 0 (by omega) (by omega) (by omega) rfl (by decide) (by decide) (by decide) x

/-- CASE C, THE OUTPUT BLOCK: the nine windows at depth offset 2 of whatever the scratch holds. -/
theorem out_C (c : Dev nD) (i : grid0.Coords) (arg3 : Memref sig .tc .vmem S1x1x32x64x64 .f32) (harg3 : arg3.IsWhole) (arg4 : Memref sig .tc .vmem S1x9x32x64x64 .f32) (harg4 : arg4.IsWhole) (arg5 : Memref sig .tc .vmem S34x66x66 .f32) (harg5 : arg5.IsWhole) (hc0 : ¬cond0_0 i) (hc1 : ¬cond0_1 i) (hc2 : ¬cond0_2 i) (hc3 : cond0_3 i)
    (x0 : Vec Ideal S1x1x32x64x64 .f32) (xs0 : Vec Ideal S34x66x66 .f32) :
    out0_C_1 (F := Ideal) c i arg3 harg3 arg4 harg4 arg5 harg5 hc0 hc1 hc2 hc3 x0 xs0 = windows 2 (by omega) xs0 := by
  unfold out0_C_1
  rw [View.read_writes_eq_canon _ _ _ (cover0_C_1 c i arg3 harg3 arg4 harg4 arg5 harg5 hc0 hc1 hc2 hc3 x0 xs0)]
  funext y
  refine View.canon_apply_of_pieces (windows 2 (by omega) xs0) _ ?_ y (cover0_C_1 c i arg3 harg3 arg4 harg4 arg5 harg5 hc0 hc1 hc2 hc3 x0 xs0 y)
  unfold kernelRun0_C
  dsimp only
  sl_unfold_words
  simp only [View.readAt_eq_ld, harg5.read_unread]
  intro p hp
  simp only [List.mem_cons, List.not_mem_nil, or_false] at hp
  rcases hp with rfl | rfl | rfl | rfl | rfl | rfl | rfl | rfl | rfl
  · exact fun x => window_piece xs0 2 2 2 8 (by omega) (by omega) (by omega) rfl (by decide) (by decide) (by decide) x
  · exact fun x => window_piece xs0 2 2 1 7 (by omega) (by omega) (by omega) rfl (by decide) (by decide) (by decide) x
  · exact fun x => window_piece xs0 2 2 0 6 (by omega) (by omega) (by omega) rfl (by decide) (by decide) (by decide) x
  · exact fun x => window_piece xs0 2 1 2 5 (by omega) (by omega) (by omega) rfl (by decide) (by decide) (by decide) x
  · exact fun x => window_piece xs0 2 1 1 4 (by omega) (by omega) (by omega) rfl (by decide) (by decide) (by decide) x
  · exact fun x => window_piece xs0 2 1 0 3 (by omega) (by omega) (by omega) rfl (by decide) (by decide) (by decide) x
  · exact fun x => window_piece xs0 2 0 2 2 (by omega) (by omega) (by omega) rfl (by decide) (by decide) (by decide) x
  · exact fun x => window_piece xs0 2 0 1 1 (by omega) (by omega) (by omega) rfl (by decide) (by decide) (by decide) x
  · exact fun x => window_piece xs0 2 0 0 0 (by omega) (by omega) (by omega) rfl (by decide) (by decide) (by decide) x

end Cert.Unfold

end
-- ==== Proof.KernelValue.lean ====
/-
  The kernel's result array as one function of its argument.

  The grid has 96 points t = 48·b + 3·ch + g (batch b, channel ch, depth offset g). The input window gives the
  points of one triple the same block, x[b, ch]; the output window gives point t the block of nine channels
  9·(3·ch + g) … 9·(3·ch + g) + 8 of batch b. The scratch is rebuilt at g = 0 and kept at g = 1, 2, so after every
  point it holds the padded volume of that point's own batch and channel (induction over the points), and the
  block a point writes back is the nine windows of that volume at depth g: the unfold read through the block.
  The 96 blocks tile the result array.
-/
import proofs.«120624_j45243185496328_1_alg».proof.Proof.Gen.KernelIdeal.Value
import proofs.«120624_j45243185496328_1_alg».proof.Proof.KernelCases

set_option maxRecDepth 16384

noncomputable section

namespace Cert.Unfold

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The argument array as the region finds it. -/
abbrev argX (c : Dev nD) : SX.Idx → EReal := V m c main_arg0

theorem lt96 (t : Fin cfg0.N) : t.val < 96 := lt_of_lt_of_eq t.isLt (show cfg0.N = 96 from N_0)

/-- The batch of point `t`. -/
def bOf (t : Fin cfg0.N) : Fin 2 := ⟨t.val / 48, by have := lt96 t; omega⟩
/-- The channel of point `t`. -/
def chOf (t : Fin cfg0.N) : Fin 16 := ⟨t.val / 3 % 16, Nat.mod_lt _ (by decide)⟩

theorem padded_congr (x : SX.Idx → EReal) {b b' : Fin 2} {ch ch' : Fin 16} {Z Z' Y Y' W W' : Nat}
    (hb : b = b') (hc : ch = ch') (hZ : Z = Z') (hY : Y = Y') (hW : W = W') :
    padded x b ch Z Y W = padded x b' ch' Z' Y' W' := by
  subst hb hc hZ hY hW; rfl

theorem windows_congr (s : Vec Ideal S34x66x66 .f32) {g g' : Nat} {hg : g ≤ 2} {hg' : g' ≤ 2} (h : g = g') :
    windows g hg s = windows g' hg' s := by
  subst h; rfl

/-- The printed index maps, decided once over the 96 points: the input block index is (batch, channel, 0, 0, 0),
    the output block index (batch, 3·channel + depth offset, 0, 0, 0). -/
theorem idx_facts : ∀ t : Fin cfg0.N,
    win0_0.index t (0 : Fin 5) = t.val / 48 ∧ win0_0.index t (1 : Fin 5) = t.val / 3 % 16
    ∧ win0_0.index t (2 : Fin 5) = 0 ∧ win0_0.index t (3 : Fin 5) = 0 ∧ win0_0.index t (4 : Fin 5) = 0
    ∧ win0_1.index t (0 : Fin 5) = t.val / 48 ∧ win0_1.index t (1 : Fin 5) = t.val / 3 % 16 * 3 + t.val % 3
    ∧ win0_1.index t (2 : Fin 5) = 0 ∧ win0_1.index t (3 : Fin 5) = 0 ∧ win0_1.index t (4 : Fin 5) = 0 :=
  (by decide +kernel : ∀ t : Fin grid0.N, _)

/-- The input block of point `t` is the (batch, channel) volume of the argument. -/
theorem iblk_read (c : Dev nD) (t : Fin cfg0.N) (z : Fin 32) (y w : Fin 64) :
    iblk m c 0 t (ix5 (0 : Fin 1) (0 : Fin 1) z y w) = argX m c (ix5 (bOf t) (chOf t) z y w) := by
  obtain ⟨e0, e1, e2, e3, e4, -⟩ := idx_facts t
  show V m c main_arg0 (((cfg0.win 0).blk t).view.emb (ix5 (0 : Fin 1) (0 : Fin 1) z y w)) = V m c main_arg0 (ix5 (bOf t) (chOf t) z y w)
  refine congrArg (V m c main_arg0) (funext fun a => Fin.ext ?_)
  match a with
  | ⟨0, _⟩ => show win0_0.index t (0 : Fin 5) * 1 + 1 * 0 = t.val / 48; omega
  | ⟨1, _⟩ => show win0_0.index t (1 : Fin 5) * 1 + 1 * 0 = t.val / 3 % 16; omega
  | ⟨2, _⟩ => show win0_0.index t (2 : Fin 5) * 32 + 1 * z.val = z.val; omega
  | ⟨3, _⟩ => show win0_0.index t (3 : Fin 5) * 64 + 1 * y.val = y.val; omega
  | ⟨4, _⟩ => show win0_0.index t (4 : Fin 5) * 64 + 1 * w.val = w.val; omega

/-- At the first point of a triple the scratch ends at the padded volume of the point's batch and channel. -/
theorem scratch_first (c : Dev nD) (t : Fin cfg0.N) (h0 : t.val % 3 = 0) :
    (outsAt0 m c t.val t.isLt).2 = volume (argX m c) (bOf t) (chOf t) := by
  have h2 : ¬t.val % 3 = 1 := by omega
  have h3 : ¬t.val % 3 = 2 := by omega
  rw [outsAt0_A m c t h0 h0 h2 h3]
  dsimp only
  exact scratch_A c (grid0.coords t) (ms0_0 t) (hs0_0 t) (ms0_1 t) (hs0_1 t) scM0_0 (Memref.isWhole_whole _)
    ((hcond0_0 t).mpr h0) ((hcond0_1 t).mpr h0) (fun h => h2 ((hcond0_2 t).mp h)) (fun h => h3 ((hcond0_3 t).mp h))
    (iblk m c 0 t) (argX m c) (bOf t) (chOf t) (fun z y w => iblk_read m c t z y w)

/-- THE SCRATCH AFTER EVERY POINT: the padded volume of the point's own batch and channel — rebuilt at the first
    point of a triple, carried unchanged through the other two, which have the same batch and channel. -/
theorem scratch_inv (c : Dev nD) (n : ℕ) : ∀ hn : n < cfg0.N,
    (outsAt0 m c n hn).2 = volume (argX m c) (bOf ⟨n, hn⟩) (chOf ⟨n, hn⟩) := by
  induction n using Nat.strong_induction_on with
  | _ n ih =>
    intro hn
    have hN : n < 96 := lt_of_lt_of_eq hn (show cfg0.N = 96 from N_0)
    by_cases h0 : n % 3 = 0
    · exact scratch_first m c ⟨n, hn⟩ h0
    · have hpos : n - 1 < n := by omega
      have hn' : n - 1 < cfg0.N := lt_trans hpos hn
      have eb : bOf ⟨n - 1, hn'⟩ = bOf ⟨n, hn⟩ := Fin.ext (by show (n - 1) / 48 = n / 48; omega)
      have ec : chOf ⟨n - 1, hn'⟩ = chOf ⟨n, hn⟩ := Fin.ext (by show (n - 1) / 3 % 16 = n / 3 % 16; omega)
      have keep : (outsAt0 m c n hn).2 = (outsAt0 m c (n - 1) hn').2 := by
        by_cases h2 : n % 3 = 1
        · have h3 : ¬n % 3 = 2 := by omega
          show (outsAt0 m c (⟨n, hn⟩ : Fin cfg0.N).val (⟨n, hn⟩ : Fin cfg0.N).isLt).2 = _
          rw [outsAt0_B m c ⟨n, hn⟩ h0 h0 h2 h3]
          dsimp only
          unfold sout0_B_0
          rfl
        · have h3 : n % 3 = 2 := by omega
          show (outsAt0 m c (⟨n, hn⟩ : Fin cfg0.N).val (⟨n, hn⟩ : Fin cfg0.N).isLt).2 = _
          rw [outsAt0_C m c ⟨n, hn⟩ h0 h0 h2 h3]
          dsimp only
          unfold sout0_C_0
          rfl
      rw [keep, ih (n - 1) hpos hn', eb, ec]

/-- WHAT EVERY POINT LEAVES IN THE OUTPUT BLOCK: the nine windows, at the point's depth offset, of the padded volume
    of its batch and channel. -/
theorem out_point (c : Dev nD) (t : Fin cfg0.N) :
    (outsAt0 m c t.val t.isLt).1
      = windows (t.val % 3) (Nat.le_of_lt_succ (Nat.mod_lt _ (by decide))) (volume (argX m c) (bOf t) (chOf t)) := by
  have hN := lt96 t
  by_cases h0 : t.val % 3 = 0
  · have h2 : ¬t.val % 3 = 1 := by omega
    have h3 : ¬t.val % 3 = 2 := by omega
    rw [outsAt0_A m c t h0 h0 h2 h3]
    dsimp only
    refine (out_A c (grid0.coords t) (ms0_0 t) (hs0_0 t) (ms0_1 t) (hs0_1 t) scM0_0 (Memref.isWhole_whole _)
      ((hcond0_0 t).mpr h0) ((hcond0_1 t).mpr h0) (fun h => h2 ((hcond0_2 t).mp h)) (fun h => h3 ((hcond0_3 t).mp h))
      (iblk m c 0 t) (argX m c) (bOf t) (chOf t) (fun z y w => iblk_read m c t z y w)).trans ?_
    exact windows_congr _ h0.symm
  · have hpos : t.val - 1 < t.val := by omega
    have hn' : t.val - 1 < cfg0.N := lt_trans hpos t.isLt
    have hs := scratch_inv m c (t.val - 1) hn'
    have eb : bOf ⟨t.val - 1, hn'⟩ = bOf t := Fin.ext (by show (t.val - 1) / 48 = t.val / 48; omega)
    have ec : chOf ⟨t.val - 1, hn'⟩ = chOf t := Fin.ext (by show (t.val - 1) / 3 % 16 = t.val / 3 % 16; omega)
    rw [eb, ec] at hs
    by_cases h2 : t.val % 3 = 1
    · have h3 : ¬t.val % 3 = 2 := by omega
      rw [outsAt0_B m c t h0 h0 h2 h3]
      dsimp only
      refine (out_B c (grid0.coords t) (ms0_0 t) (hs0_0 t) (ms0_1 t) (hs0_1 t) scM0_0 (Memref.isWhole_whole _)
        (fun h => h0 ((hcond0_0 t).mp h)) (fun h => h0 ((hcond0_1 t).mp h)) ((hcond0_2 t).mpr h2) (fun h => h3 ((hcond0_3 t).mp h))
        (iblk m c 0 t) (outsAt0 m c (t.val - 1) hn').2).trans ?_
      rw [hs]
      exact windows_congr _ h2.symm
    · have h3 : t.val % 3 = 2 := by omega
      rw [outsAt0_C m c t h0 h0 h2 h3]
      dsimp only
      refine (out_C c (grid0.coords t) (ms0_0 t) (hs0_0 t) (ms0_1 t) (hs0_1 t) scM0_0 (Memref.isWhole_whole _)
        (fun h => h0 ((hcond0_0 t).mp h)) (fun h => h0 ((hcond0_1 t).mp h)) (fun h => h2 ((hcond0_2 t).mp h)) ((hcond0_3 t).mpr h3)
        (iblk m c 0 t) (outsAt0 m c (t.val - 1) hn').2).trans ?_
      rw [hs]
      exact windows_congr _ h3.symm

/-- WHAT POINT `t` WRITES BACK is block `t` of the unfold of the argument array. -/
theorem flushed_eq (c : Dev nD) (t : Fin cfg0.N) :
    (dats m 0 c).flushed 1 t = ((cfg0.win 1).blk t).view.read (Elt Ideal) (unfold3 (argX m c)) := by
  rw [Cert.KernelIdeal.Value.flushed1, out_point m c t]
  have hN := lt96 t
  obtain ⟨-, -, -, -, -, e0, e1, e2, e3, e4⟩ := idx_facts t
  funext j
  obtain ⟨u, k, z, y, w, rfl⟩ : ∃ (u : Fin 1) (k : Fin 9) (z : Fin 32) (y w : Fin 64), j = ix5 u k z y w :=
    ⟨j 0, j 1, j 2, j 3, j 4, eq_ix5 j⟩
  have hu := u.isLt
  have hk := k.isLt
  have hemb : ((cfg0.win 1).blk t).view.emb (ix5 u k z y w)
      = ix5 (bOf t) (⟨(t.val / 3 % 16 * 3 + t.val % 3) * 9 + k.val, by omega⟩ : Fin 432) z y w :=
    funext fun a => Fin.ext (match a with
      | ⟨0, _⟩ => by show win0_1.index t (0 : Fin 5) * 1 + 1 * u.val = t.val / 48; omega
      | ⟨1, _⟩ => by show win0_1.index t (1 : Fin 5) * 9 + 1 * k.val = (t.val / 3 % 16 * 3 + t.val % 3) * 9 + k.val; omega
      | ⟨2, _⟩ => by show win0_1.index t (2 : Fin 5) * 32 + 1 * z.val = z.val; omega
      | ⟨3, _⟩ => by show win0_1.index t (3 : Fin 5) * 64 + 1 * y.val = y.val; omega
      | ⟨4, _⟩ => by show win0_1.index t (4 : Fin 5) * 64 + 1 * w.val = w.val; omega)
  show windowAt (t.val % 3) _ (volume (argX m c) (bOf t) (chOf t)) k z y w
    = unfold3 (argX m c) (((cfg0.win 1).blk t).view.emb (ix5 u k z y w))
  rw [hemb, unfold3_ix5]
  unfold windowAt unfoldAt
  rw [volume_ix3]
  exact padded_congr _ rfl
    (Fin.ext (by show t.val / 3 % 16 = ((t.val / 3 % 16 * 3 + t.val % 3) * 9 + k.val) / 27; omega))
    (by show z.val + t.val % 3 = z.val + ((t.val / 3 % 16 * 3 + t.val % 3) * 9 + k.val) % 27 / 9; omega)
    (by show y.val + k.val / 3 = y.val + ((t.val / 3 % 16 * 3 + t.val % 3) * 9 + k.val) % 27 / 3 % 3; omega)
    (by show w.val + k.val % 3 = w.val + ((t.val / 3 % 16 * 3 + t.val % 3) * 9 + k.val) % 27 % 3; omega)

/-- An index of the result array is in point `t`'s block iff each coordinate is in the block's range on its axis. -/
theorem mem_blk (t : Fin cfg0.N) (i : S2x432x32x64x64.Idx) :
    i ∈ ((cfg0.win 1).blk t).view.set ↔ ∀ a : Fin 5, win0_1.index t a * S1x9x32x64x64.size a ≤ (i a).val
      ∧ (i a).val < win0_1.index t a * S1x9x32x64x64.size a + S1x9x32x64x64.size a := by
  show i ∈ ((View.whole main_v0).slice (win0_1.rect t)).set ↔ _
  rw [View.set_slice_whole, Rect.mem_set_unit]
  exact Iff.rfl

/-- The blocks tile the result array: entry (b, q, ·, ·, ·) is in the block of the point 48·b + q / 9. -/
theorem cover (i : S2x432x32x64x64.Idx) :
    ∃ t : Fin cfg0.N, (cfg0.win 1).flush t = true ∧ i ∈ ((cfg0.win 1).blk t).view.set := by
  have h0 : (i 0).val < 2 := (i 0).isLt
  have h1 : (i 1).val < 432 := (i 1).isLt
  have h2 : (i 2).val < 32 := (i 2).isLt
  have h3 : (i 3).val < 64 := (i 3).isLt
  have h4 : (i 4).val < 64 := (i 4).isLt
  have hN : (i 0).val * 48 + (i 1).val / 9 < cfg0.N := by rw [show cfg0.N = 96 from N_0]; omega
  refine ⟨⟨(i 0).val * 48 + (i 1).val / 9, hN⟩, flush0_1 _, ?_⟩
  rw [mem_blk]
  obtain ⟨-, -, -, -, -, e0, e1, e2, e3, e4⟩ := idx_facts ⟨(i 0).val * 48 + (i 1).val / 9, hN⟩
  have e0' : win0_1.index ⟨(i 0).val * 48 + (i 1).val / 9, hN⟩ (0 : Fin 5) = ((i 0).val * 48 + (i 1).val / 9) / 48 := e0
  have e1' : win0_1.index ⟨(i 0).val * 48 + (i 1).val / 9, hN⟩ (1 : Fin 5)
      = ((i 0).val * 48 + (i 1).val / 9) / 3 % 16 * 3 + ((i 0).val * 48 + (i 1).val / 9) % 3 := e1
  intro a
  match a with
  | ⟨0, _⟩ => show win0_1.index _ (0 : Fin 5) * 1 ≤ (i 0).val ∧ (i 0).val < win0_1.index _ (0 : Fin 5) * 1 + 1; omega
  | ⟨1, _⟩ => show win0_1.index _ (1 : Fin 5) * 9 ≤ (i 1).val ∧ (i 1).val < win0_1.index _ (1 : Fin 5) * 9 + 9; omega
  | ⟨2, _⟩ => show win0_1.index _ (2 : Fin 5) * 32 ≤ (i 2).val ∧ (i 2).val < win0_1.index _ (2 : Fin 5) * 32 + 32; omega
  | ⟨3, _⟩ => show win0_1.index _ (3 : Fin 5) * 64 ≤ (i 3).val ∧ (i 3).val < win0_1.index _ (3 : Fin 5) * 64 + 64; omega
  | ⟨4, _⟩ => show win0_1.index _ (4 : Fin 5) * 64 ≤ (i 4).val ∧ (i 4).val < win0_1.index _ (4 : Fin 5) * 64 + 64; omega

/-- THE RESULT ARRAY after the run: the unfold of the argument array. -/
theorem final (c : Dev nD) : (dats m 0 c).arrAt 1 cfg0.N = unfold3 (argX m c) :=
  (dats m 0 c).arrAt_eq_of_cover 1 (unfold3 (argX m c)) (fun t _ => flushed_eq m c t) cover

/-- The kernel's run re-posted: the result array is the unfold of the argument, the argument unchanged. -/
theorem kernel_run : θ_run defs (onTc (τ := τ) (main (F := Ideal))) ⟨m, fun _ => 0, ρ⟩ fun r => ∀ c : Dev nD,
      r.2.mem ((c : Thread nD τ).loc main_v0) = unfold3 (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.Unfold

end
-- ==== Proof.RefStages.lean ====
/-
  The host operations the reference is made of, each read at an index given by its coordinates:
  a zero padding of one voxel on the three spatial axes, a window of the padded array at an offset,
  a unit axis put in front of the spatial axes, the joining of unit-extent pieces along that axis, and
  the merging of the channel axis with the joined axis. The shape side conditions are hypotheses, so
  each statement applies to whatever evidence the program carries.
-/
import Idealize.ShloMosaic.Lib.Pipeline.Value
import Idealize.ShloMosaic.Lib.KernelVsHost
import Idealize.ShloMosaic.Lib.ValueIdxRank6
import proofs.«120624_j45243185496328_1_alg».proof.Proof.UnfoldSpec

noncomputable section

namespace Cert.Unfold

open Idealize.ShloMosaic Idealize.ShloMosaic.ValueIdx

/-- The padded array: every (batch, channel) volume with its one-voxel halo. -/
abbrev SPd : Shape := ⟨5, ![2, 16, 34, 66, 66]⟩
/-- One window of the padded array with a unit axis in front of the spatial axes. -/
abbrev S6 : Shape := ⟨6, ![2, 16, 1, 32, 64, 64]⟩
/-- `N` such windows joined along the unit axis. -/
abbrev S6N (N : Nat) : Shape := ⟨6, ![2, 16, N, 32, 64, 64]⟩

/-- The zero padding read at a position of the padded array: the volume `padded` of the specification. -/
theorem pad_read (x : SX.Idx → EReal) {u : Shape} (v : u.Idx → EReal)
    (h : SX.Pads ![0, 0, 1, 1, 1] ![0, 0, 1, 1, 1] ![0, 0, 0, 0, 0] SPd) (hu : 0 < u.numel)
    (hv : v (Shape.Idx.first hu) = 0) (b : Fin 2) (ch : Fin 16) (Z : Fin 34) (Y : Fin 66) (X : Fin 66) :
    pad SPd ![0, 0, 1, 1, 1] ![0, 0, 1, 1, 1] ![0, 0, 0, 0, 0] x v h hu (ix5 b ch Z Y X)
      = padded x b ch Z.val Y.val X.val := by
  by_cases hz : 1 ≤ Z.val ∧ Z.val ≤ 32
  · by_cases hy : 1 ≤ Y.val ∧ Y.val ≤ 64
    · by_cases hx : 1 ≤ X.val ∧ X.val ≤ 64
      · rw [padded_inside x b ch Z.val Y.val X.val ⟨Z.val - 1, by omega⟩ ⟨Y.val - 1, by omega⟩ ⟨X.val - 1, by omega⟩
          (by show Z.val = Z.val - 1 + 1; omega) (by show Y.val = Y.val - 1 + 1; omega) (by show X.val = X.val - 1 + 1; omega)]
        exact pad_apply_of_inside _ _ _ x v h hu _ _ (fun a => match a with
          | ⟨0, _⟩ => by show b.val = 0 + b.val * (0 + 1); omega
          | ⟨1, _⟩ => by show ch.val = 0 + ch.val * (0 + 1); omega
          | ⟨2, _⟩ => by show Z.val = 1 + (Z.val - 1) * (0 + 1); omega
          | ⟨3, _⟩ => by show Y.val = 1 + (Y.val - 1) * (0 + 1); omega
          | ⟨4, _⟩ => by show X.val = 1 + (X.val - 1) * (0 + 1); omega)
      · rw [padded_outside x b ch _ _ _ (fun hh => hx hh.2.2)]
        exact (pad_apply_of_not_inside _ _ _ x v h hu _ ⟨4, by decide⟩
          (by show ¬(1 ≤ X.val ∧ (X.val - 1) % (0 + 1) = 0 ∧ (X.val - 1) / (0 + 1) < 64); omega)).trans hv
    · rw [padded_outside x b ch _ _ _ (fun hh => hy hh.2.1)]
      exact (pad_apply_of_not_inside _ _ _ x v h hu _ ⟨3, by decide⟩
        (by show ¬(1 ≤ Y.val ∧ (Y.val - 1) % (0 + 1) = 0 ∧ (Y.val - 1) / (0 + 1) < 64); omega)).trans hv
  · rw [padded_outside x b ch _ _ _ (fun hh => hz hh.1)]
    exact (pad_apply_of_not_inside _ _ _ x v h hu _ ⟨2, by decide⟩
      (by show ¬(1 ≤ Z.val ∧ (Z.val - 1) % (0 + 1) = 0 ∧ (Z.val - 1) / (0 + 1) < 32); omega)).trans hv

/-- The window of the padded array that starts at (dz, dy, dx), read at a position. -/
theorem window_read (P : SPd.Idx → EReal) (dz dy dx : Nat) (h : SPd.Slices ![0, 0, dz, dy, dx] SX)
    (b : Fin 2) (ch : Fin 16) (z : Fin 32) (y : Fin 64) (w : Fin 64)
    (hz : z.val + dz < 34) (hy : y.val + dy < 66) (hw : w.val + dx < 66) :
    extractStridedSlice SX ![0, 0, dz, dy, dx] P h (ix5 b ch z y w)
      = P (ix5 b ch ⟨z.val + dz, hz⟩ ⟨y.val + dy, hy⟩ ⟨w.val + dx, hw⟩) :=
  extractStridedSlice_apply _ P h _ _ (fun a => match a with
    | ⟨0, _⟩ => by show b.val = 0 + b.val; omega
    | ⟨1, _⟩ => by show ch.val = 0 + ch.val; omega
    | ⟨2, _⟩ => by show z.val + dz = dz + z.val; omega
    | ⟨3, _⟩ => by show y.val + dy = dy + y.val; omega
    | ⟨4, _⟩ => by show w.val + dx = dx + w.val; omega)

/-- A unit axis put in front of the spatial axes changes no entry. -/
theorem unit_axis_read (A : SX.Idx → EReal) (h : SX.BroadcastsInDim S6 ![0, 1, 3, 4, 5])
    (b : Fin 2) (ch : Fin 16) (u : Fin 1) (z : Fin 32) (y : Fin 64) (w : Fin 64) :
    broadcastInDim S6 ![0, 1, 3, 4, 5] h A (ix6 b ch u z y w) = A (ix5 b ch z y w) :=
  broadcastInDim_apply _ h A _ _ (fun a => match a with
    | ⟨0, _⟩ => by show b.val = if (2 : Nat) = 1 then 0 else b.val; simp
    | ⟨1, _⟩ => by show ch.val = if (16 : Nat) = 1 then 0 else ch.val; simp
    | ⟨2, _⟩ => by show z.val = if (32 : Nat) = 1 then 0 else z.val; simp
    | ⟨3, _⟩ => by show y.val = if (64 : Nat) = 1 then 0 else y.val; simp
    | ⟨4, _⟩ => by show w.val = if (64 : Nat) = 1 then 0 else w.val; simp)

/-- `N` unit-extent pieces joined along the third axis: position `n` on that axis reads piece `n`. -/
theorem joined_read {N : Nat} (f : Fin N → (S6.Idx → EReal))
    (h : Shape.Concatenates ((List.ofFn fun n : Fin N => (⟨S6, f n⟩ : (s : Shape) × (s.Idx → EReal))).map (·.1)) (S6N N) 2)
    (b : Fin 2) (ch : Fin 16) (n : Fin N) (z : Fin 32) (y : Fin 64) (w : Fin 64) :
    concatenate (S6N N) 2 (List.ofFn fun n : Fin N => (⟨S6, f n⟩ : (s : Shape) × (s.Idx → EReal))) h (ix6 b ch n z y w)
      = f n (ix6 b ch (0 : Fin 1) z y w) :=
  concatenate_ofFn_unit_apply (t := S6N N) (s₁ := S6) 2 f h rfl rfl (ix6 b ch n z y w) n rfl (ix6 b ch (0 : Fin 1) z y w)
    (fun a ha => match a, ha with
      | ⟨0, _⟩, _ => rfl
      | ⟨1, _⟩, _ => rfl
      | ⟨2, _⟩, ha => absurd rfl ha
      | ⟨3, _⟩, _ => rfl
      | ⟨4, _⟩, _ => rfl
      | ⟨5, _⟩, _ => rfl)

/-- Two joined stacks of `N₁` and `N₂` pieces, a position in the first stack. -/
theorem stacks_read_left {N₁ N₂ : Nat} (A : (S6N N₁).Idx → EReal) (B : (S6N N₂).Idx → EReal)
    (h : Shape.Concatenates [S6N N₁, S6N N₂] (S6N (N₁ + N₂)) 2)
    (b : Fin 2) (ch : Fin 16) (n : Fin (N₁ + N₂)) (hn : n.val < N₁) (z : Fin 32) (y : Fin 64) (w : Fin 64) :
    concatenate (S6N (N₁ + N₂)) 2 [⟨S6N N₁, A⟩, ⟨S6N N₂, B⟩] h (ix6 b ch n z y w)
      = A (ix6 b ch (⟨n.val, hn⟩ : Fin N₁) z y w) :=
  concatenate_pair_apply_left (t := S6N (N₁ + N₂)) 2 A B h (ix6 b ch n z y w) rfl _
    (fun a => match a with
      | ⟨0, _⟩ => rfl | ⟨1, _⟩ => rfl | ⟨2, _⟩ => rfl | ⟨3, _⟩ => rfl | ⟨4, _⟩ => rfl | ⟨5, _⟩ => rfl)

/-- Two joined stacks of `N₁` and `N₂` pieces, a position in the second stack. -/
theorem stacks_read_right {N₁ N₂ : Nat} (A : (S6N N₁).Idx → EReal) (B : (S6N N₂).Idx → EReal)
    (h : Shape.Concatenates [S6N N₁, S6N N₂] (S6N (N₁ + N₂)) 2)
    (b : Fin 2) (ch : Fin 16) (n : Fin (N₁ + N₂)) (hn : N₁ ≤ n.val) (z : Fin 32) (y : Fin 64) (w : Fin 64) :
    concatenate (S6N (N₁ + N₂)) 2 [⟨S6N N₁, A⟩, ⟨S6N N₂, B⟩] h (ix6 b ch n z y w)
      = B (ix6 b ch (⟨n.val - N₁, by have := n.isLt; omega⟩ : Fin N₂) z y w) :=
  concatenate_pair_apply_right (t := S6N (N₁ + N₂)) 2 A B h (ix6 b ch n z y w) rfl rfl _
    (fun a ha => match a, ha with
      | ⟨0, _⟩, _ => rfl
      | ⟨1, _⟩, _ => rfl
      | ⟨2, _⟩, ha => absurd rfl ha
      | ⟨3, _⟩, _ => rfl
      | ⟨4, _⟩, _ => rfl
      | ⟨5, _⟩, _ => rfl)
    (by show n.val - N₁ + N₁ = n.val; omega)

/-- Merging the channel axis (16) with the joined axis (27): output channel `q` is channel `q / 27`, piece `q % 27`. -/
theorem merged_read (A : (S6N 27).Idx → EReal) (h : (S6N 27).ShapeCasts SO)
    (b : Fin 2) (q : Fin 432) (z : Fin 32) (y : Fin 64) (w : Fin 64) :
    shapeCast SO A h (ix5 b q z y w)
      = A (ix6 b (⟨q.val / 27, by have := q.isLt; omega⟩ : Fin 16) (⟨q.val % 27, Nat.mod_lt _ (by decide)⟩ : Fin 27) z y w) := by
  refine shapeCast_apply A h _ _ ?_
  rw [Shape.rowMajor_val_six, Shape.rowMajor_val_five]
  show ((((b.val * 16 + q.val / 27) * 27 + q.val % 27) * 32 + z.val) * 64 + y.val) * 64 + w.val
    = (((b.val * 432 + q.val) * 32 + z.val) * 64 + y.val) * 64 + w.val
  have := Nat.div_add_mod q.val 27
  have e : (b.val * 16 + q.val / 27) * 27 + q.val % 27 = b.val * 432 + q.val := by omega
  rw [e]

end Cert.Unfold

end
-- ==== Proof.RefIsUnfold.lean ====
/-
  The reference computes the unfold.

  It pads the argument with one voxel of zeros on the three spatial axes (the padding value is the integer 0
  converted to a float: zero), cuts the 27 windows of the padded array at the offsets (dz, dy, dx) in
  lexicographic order, gives each a unit axis in front of the spatial axes, joins them along that axis (sixteen
  and eleven at a time, then the two stacks), and merges the channel axis with the joined axis. Read at an index,
  window n = 9·dz + 3·dy + dx of channel ch lands in output channel 27·ch + n, which is the specification.
-/
import proofs.«120624_j45243185496328_1_alg».proof.Proof.Gen.ReferenceIdeal.Read
import proofs.«120624_j45243185496328_1_alg».proof.Proof.RefStages

set_option maxRecDepth 16384

noncomputable section

namespace Cert.Unfold

open Idealize.ShloMosaic Idealize.ShloMosaic.ValueIdx
open Cert.ReferenceIdeal Cert.ReferenceIdeal.Gen Cert.ReferenceIdeal.Read

/-- The padding value — the integer zero, converted — is zero. -/
theorem pad_value : val_main_call0_v0 (F := Ideal) (Shape.Idx.first h_S_) = 0 := by
  rw [val_main_call0_v0_apply, val_main_c_apply]
  show (((0#32 : BitVec 32).toInt : ℝ) : EReal) = 0
  have e : (0#32 : BitVec 32).toInt = 0 := by decide
  rw [e]
  simp

/-- Every window offset (n / 9, n / 3 % 3, n % 3), n < 27, keeps the window inside the padded array. -/
theorem window_fits (n : Fin 27) : SPd.Slices (![0, 0, n.val / 9, n.val / 3 % 3, n.val % 3] : Fin 5 → Nat) SX :=
  ⟨rfl, fun a => match a with
    | ⟨0, _⟩ => by show 0 + 2 ≤ 2; omega
    | ⟨1, _⟩ => by show 0 + 16 ≤ 16; omega
    | ⟨2, _⟩ => by show n.val / 9 + 32 ≤ 34; have := n.isLt; omega
    | ⟨3, _⟩ => by show n.val / 3 % 3 + 64 ≤ 66; omega
    | ⟨4, _⟩ => by show n.val % 3 + 64 ≤ 66; omega⟩

/-- Window `n` of the padded argument, with its unit axis: the `n`-th of the 27 joined pieces. -/
def piece (x0 : SX.Idx → EReal) (n : Fin 27) : S6.Idx → EReal :=
  broadcastInDim S6 ![0, 1, 3, 4, 5] bcast_S2x16x32x64x64_S2x16x1x32x64x64_0_1_3_4_5
    (extractStridedSlice SX ![0, 0, n.val / 9, n.val / 3 % 3, n.val % 3] (val_main_v0 (F := Ideal) x0) (window_fits n))

/-- A piece read at an index: the padded volume at the window's offset. -/
theorem piece_read (x0 : SX.Idx → EReal) (n : Fin 27) (b : Fin 2) (ch : Fin 16) (u : Fin 1) (z : Fin 32) (y w : Fin 64) :
    piece x0 n (ix6 b ch u z y w)
      = padded x0 b ch (z.val + n.val / 9) (y.val + n.val / 3 % 3) (w.val + n.val % 3) := by
  have hn := n.isLt
  have hz := z.isLt
  have hy := y.isLt
  have hw := w.isLt
  unfold piece
  rw [unit_axis_read, window_read _ _ _ _ _ b ch z y w (by omega) (by omega) (by omega)]
  exact pad_read x0 (val_main_call0_v0 (F := Ideal)) pads_S2x16x32x64x64_S2x16x34x66x66_000_000_110_110_110 h_S_ pad_value b ch _ _ _

/-- The extents, along the joined axis, of the first `k` of `N` unit-extent pieces add up to `k`: only the pieces' shapes
    matter, not their values. -/
theorem prefix_units (t : Shape) (a : Fin t.rank) (hr : S6.rank = t.rank) (h1 : S6.size (a.cast hr.symm) = 1)
    (vs : List ((s : Shape) × (s.Idx → EReal))) (N : Nat) (hvs : vs.map (·.1) = List.replicate N S6)
    (k : Nat) (hk : k ≤ N) :
    (((vs.take k).map (·.1)).map fun s => if h : s.rank = t.rank then s.size (a.cast h.symm) else 0).sum = k := by
  rw [List.map_take, hvs, List.take_replicate, List.map_replicate, List.sum_replicate, dif_pos hr, h1]
  simp [Nat.min_eq_left hk]

/-- The first stack: position `n` of the sixteen joined pieces is piece `n`. -/
theorem first_stack_read (x0 : SX.Idx → EReal) (b : Fin 2) (ch : Fin 16) (n : Fin 16) (z : Fin 32) (y w : Fin 64) :
    val_main_v55 (F := Ideal) x0 (ix6 b ch n z y w)
      = piece x0 ⟨n.val, by have := n.isLt; omega⟩ (ix6 b ch (0 : Fin 1) z y w) := by
  unfold val_main_v55
  refine concatenate_apply_piece (t := S2x16x16x32x64x64) 2 _ _ (ix6 b ch n z y w) n.val ?_ S6
    (piece x0 ⟨n.val, by have := n.isLt; omega⟩) ?_ rfl n.val ?_ (ix6 b ch (0 : Fin 1) z y w) ?_ ?_
  · exact n.isLt
  · fin_cases n <;> rfl
  · exact prefix_units _ 2 rfl rfl _ _ rfl n.val (Nat.le_of_lt n.isLt)
  · exact fun a ha => match a, ha with
      | ⟨0, _⟩, _ => rfl
      | ⟨1, _⟩, _ => rfl
      | ⟨2, _⟩, ha => absurd rfl ha
      | ⟨3, _⟩, _ => rfl
      | ⟨4, _⟩, _ => rfl
      | ⟨5, _⟩, _ => rfl
  · show n.val + 0 = n.val
    omega

/-- The second stack: position `n` of the eleven joined pieces is piece `16 + n`. -/
theorem second_stack_read (x0 : SX.Idx → EReal) (b : Fin 2) (ch : Fin 16) (n : Fin 11) (z : Fin 32) (y w : Fin 64) :
    val_main_v56 (F := Ideal) x0 (ix6 b ch n z y w)
      = piece x0 ⟨16 + n.val, by have := n.isLt; omega⟩ (ix6 b ch (0 : Fin 1) z y w) := by
  unfold val_main_v56
  refine concatenate_apply_piece (t := S2x16x11x32x64x64) 2 _ _ (ix6 b ch n z y w) n.val ?_ S6
    (piece x0 ⟨16 + n.val, by have := n.isLt; omega⟩) ?_ rfl n.val ?_ (ix6 b ch (0 : Fin 1) z y w) ?_ ?_
  · exact n.isLt
  · fin_cases n <;> rfl
  · exact prefix_units _ 2 rfl rfl _ _ rfl n.val (Nat.le_of_lt n.isLt)
  · exact fun a ha => match a, ha with
      | ⟨0, _⟩, _ => rfl
      | ⟨1, _⟩, _ => rfl
      | ⟨2, _⟩, ha => absurd rfl ha
      | ⟨3, _⟩, _ => rfl
      | ⟨4, _⟩, _ => rfl
      | ⟨5, _⟩, _ => rfl
  · show n.val + 0 = n.val
    omega

/-- All 27 pieces joined: position `n` reads piece `n`. -/
theorem all_pieces_read (x0 : SX.Idx → EReal) (b : Fin 2) (ch : Fin 16) (n : Fin 27) (z : Fin 32) (y w : Fin 64) :
    val_main_v57 (F := Ideal) x0 (ix6 b ch n z y w) = piece x0 n (ix6 b ch (0 : Fin 1) z y w) := by
  by_cases hn : n.val < 16
  · refine (stacks_read_left (N₁ := 16) (N₂ := 11) (val_main_v55 (F := Ideal) x0) (val_main_v56 (F := Ideal) x0)
      concatenates_S2x16x16x32x64x64_S2x16x11x32x64x64_S2x16x27x32x64x64_d2 b ch n hn z y w).trans ?_
    exact first_stack_read x0 b ch ⟨n.val, hn⟩ z y w
  · have hn27 := n.isLt
    refine (stacks_read_right (N₁ := 16) (N₂ := 11) (val_main_v55 (F := Ideal) x0) (val_main_v56 (F := Ideal) x0)
      concatenates_S2x16x16x32x64x64_S2x16x11x32x64x64_S2x16x27x32x64x64_d2 b ch n (Nat.le_of_not_lt hn) z y w).trans ?_
    refine (second_stack_read x0 b ch ⟨n.val - 16, by omega⟩ z y w).trans ?_
    exact congrArg (fun k : Fin 27 => piece x0 k (ix6 b ch (0 : Fin 1) z y w))
      (Fin.ext (by show 16 + (n.val - 16) = n.val; omega))

/-- THE REFERENCE'S RESULT is the unfold of its argument. -/
theorem ref_is_unfold (x0 : SX.Idx → EReal) : val_main_v58 (F := Ideal) x0 = unfold3 x0 := by
  funext j
  obtain ⟨b, q, z, y, w, rfl⟩ : ∃ (b : Fin 2) (q : Fin 432) (z : Fin 32) (y w : Fin 64), j = ix5 b q z y w :=
    ⟨j 0, j 1, j 2, j 3, j 4, eq_ix5 j⟩
  rw [unfold3_ix5]
  unfold val_main_v58
  rw [merged_read, all_pieces_read, piece_read]
  rfl

end Cert.Unfold

end
-- ==== Proof.lean ====
/-
  The certificate of the 3 × 3 × 3 unfold kernel against its jnp reference.

  Both programs move data and do no arithmetic. For an argument x : [2, 16, 32, 64, 64] the result
  [2, 432, 32, 64, 64] has, in output channel 27·ch + 9·dz + 3·dy + dx, the window at offset (dz, dy, dx) of
  the zero-padded volume of x[b, ch] (Proof/UnfoldSpec.lean).

  The kernel walks a grid of (batch, channel, depth offset): at depth offset 0 it rebuilds the padded volume in
  a scratch buffer, and at every depth offset it stores nine windows of the scratch into a block of nine output
  channels; Proof/KernelValue.lean shows by induction over the grid points that the scratch holds the right
  volume at every point and that the blocks tile the result with the unfold. The reference pads, cuts the 27
  windows and joins them; Proof/RefIsUnfold.lean reads that chain at an index. The two results are therefore
  the same function of arguments that agree, entry by entry, for all extended reals: the precondition is not used.

  The three frames are the generated ones (the reference's frame is its run with the result dropped), and the
  idealization rewrote nothing, so there is nothing to preserve.
-/
import proofs.«120624_j45243185496328_1_alg».proof.Defs
import proofs.«120624_j45243185496328_1_alg».proof.Proof.Gen.Kernel
import proofs.«120624_j45243185496328_1_alg».proof.Proof.Gen.Kernel.Skeleton
import proofs.«120624_j45243185496328_1_alg».proof.Proof.Gen.Kernel.Launch
import proofs.«120624_j45243185496328_1_alg».proof.Proof.Gen.Kernel.Points
import proofs.«120624_j45243185496328_1_alg».proof.Proof.Gen.Kernel.Frame
import proofs.«120624_j45243185496328_1_alg».proof.Proof.Gen.KernelIdeal
import proofs.«120624_j45243185496328_1_alg».proof.Proof.Gen.KernelIdeal.Skeleton
import proofs.«120624_j45243185496328_1_alg».proof.Proof.Gen.KernelIdeal.Launch
import proofs.«120624_j45243185496328_1_alg».proof.Proof.Gen.KernelIdeal.Points
import proofs.«120624_j45243185496328_1_alg».proof.Proof.Gen.KernelIdeal.Frame
import proofs.«120624_j45243185496328_1_alg».proof.Proof.Gen.ReferenceIdeal
import proofs.«120624_j45243185496328_1_alg».proof.Proof.Gen.KernelIdeal.Value
import proofs.«120624_j45243185496328_1_alg».proof.Proof.Gen.ReferenceIdeal.Run
import proofs.«120624_j45243185496328_1_alg».proof.Proof.Gen.ReferenceIdeal.Read
import proofs.«120624_j45243185496328_1_alg».proof.Proof.Gen.Pre_finite_inputs
import proofs.«120624_j45243185496328_1_alg».proof.Proof.KernelValue
import proofs.«120624_j45243185496328_1_alg».proof.Proof.RefIsUnfold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument both programs end at the unfold of that argument. -/
theorem algebraic : Cert.algebraic_KernelIdeal_ReferenceIdeal := by
  intro m ρ m' ρ' _ hagree
  refine ⟨fun c => Cert.Unfold.unfold3 (m ((c.tc : Thread Cert.KernelIdeal.nD Cert.KernelIdeal.τ).loc Cert.KernelIdeal.main_arg0)),
    Cert.Unfold.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.Unfold.ref_is_unfold, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
